-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x125 : Shape := ⟨2, ![128, 125]⟩
abbrev S125 : Shape := ⟨1, ![125]⟩
abbrev S125x128 : Shape := ⟨2, ![125, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x125 : S_.BroadcastsInDim S128x125 (![] : Fin 0 → Fin S128x125.rank)
  reducesTo_S128x125_S_d0_1 : S128x125.ReducesTo [0, 1] S_
  bcast_S_S125 : S_.BroadcastsInDim S125 (![] : Fin 0 → Fin S125.rank)
  reducesTo_S125_S_d0 : S125.ReducesTo [0] S_
  bcast_S_S125x128 : S_.BroadcastsInDim S125x128 (![] : Fin 0 → Fin S125x128.rank)
  reducesTo_S125x128_S_d0_1 : S125x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S128x2 .f32) (main_arg14 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x2 .f32 := Host.absf main_arg13
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x125 .f32) (main_arg10 : FVec F S125 .f32) (main_arg11 : FVec F S125x128 .f32) (main_arg12 : FVec F S128 .f32) (main_arg13 : FVec F S128x2 .f32) (main_arg14 : FVec F S2 .f32) (main_v33 : IVec S_ 1) : IVec S_ 1 :=
  let main_v34 : FVec F S128x125 .f32 := Host.absf main_arg9
  let main_cst_12 : FVec F S_ .f32 := constant S_ .f32 0x7F800000#32
  let main_v35 : FVec F S128x125 .f32 := broadcastInDim S128x125 ![] bcast_S_S128x125 main_cst_12
  let main_v36 : IVec S128x125 1 := cmpf .olt main_v34 main_v35
  let main_c_13 : IVec S_ 1 := constantI S_ 1 1#1
  let main_v37 : IVec S_ 1 := (fun x v => Host.reduce IntOp.andi x v reducesTo_S128x125_S_d0_1 h_S_) main_v36 main_c_13
  let main_v38 : IVec S_ 1 := andi main_v33 main_v37
  let main_v39 : FVec F S125 .f32 := Host.absf main_arg10
  let main_cst_14 : FVec F S_ .f32 := constant S_ .f32 0x7F800000#32
  let main_v40 : FVec F S125 .f32 := broadcastInDim S125 ![] bcast_S_S125 main_cst_14
  let main_v41 : IVec S125 1 := cmpf .olt main_v39 main_v40
  let main_c_15 : IVec S_ 1 := constantI S_ 1 1#1
  let main_v42 : IVec S_ 1 := (fun x v => Host.reduce IntOp.andi x v reducesTo_S125_S_d0 h_S_) main_v41 main_c_15
  let main_v43 : IVec S_ 1 := andi main_v38 main_v42
  let main_v44 : FVec F S125x128 .f32 := Host.absf main_arg11
  let main_cst_16 : FVec F S_ .f32 := constant S_ .f32 0x7F800000#32
  let main_v45 : FVec F S125x128 .f32 := broadcastInDim S125x128 ![] bcast_S_S125x128 main_cst_16
  let main_v46 : IVec S125x128 1 := cmpf .olt main_v44 main_v45
  let main_c_17 : IVec S_ 1 := constantI S_ 1 1#1
  let main_v47 : IVec S_ 1 := (fun x v => Host.reduce IntOp.andi x v reducesTo_S125x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x125 .f32) (main_arg10 : FVec F S125 .f32) (main_arg11 : FVec F S125x128 .f32) (main_arg12 : FVec F S128 .f32) (main_arg13 : FVec F S128x2 .f32) (main_arg14 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x125 .f32) (main_arg10 : FVec F S125 .f32) (main_arg11 : FVec F S125x128 .f32) (main_arg12 : FVec F S128 .f32) (main_arg13 : FVec F S128x2 .f32) (main_arg14 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x125 : Shape := ⟨2, ![128, 125]⟩
abbrev S125 : Shape := ⟨1, ![125]⟩
abbrev S125x128 : Shape := ⟨2, ![125, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S2000x128 : Shape := ⟨2, ![2000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x125 : Shape := ⟨2, ![1, 125]⟩
abbrev S1x2 : Shape := ⟨2, ![1, 2]⟩
abbrev S100000x2 : Shape := ⟨2, ![100000, 2]⟩
abbrev S2000x2 : Shape := ⟨2, ![2000, 2]⟩
abbrev S2000x125 : Shape := ⟨2, ![2000, 125]⟩
abbrev S64x2 : Shape := ⟨2, ![64, 2]⟩
abbrev S100000x1 : Shape := ⟨2, ![100000, 1]⟩
abbrev S64 : Shape := ⟨1, ![64]⟩
abbrev S64x1 : Shape := ⟨2, ![64, 1]⟩

abbrev nBuf : Space → Nat
  | .hbm => 201
  | .vmem => 28
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x125, .f32⟩
  | 10 => ⟨S125, .f32⟩
  | 11 => ⟨S125x128, .f32⟩
  | 12 => ⟨S128, .f32⟩
  | 13 => ⟨S128x2, .f32⟩
  | 14 => ⟨S2, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000, .i32⟩
  | 1 => ⟨S1700000, .i32⟩
  | 2 => ⟨S1700000, .i32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x128, .f32⟩
  | 45 => ⟨S1700000x1, .f32⟩
  | 46 => ⟨S1700000x128, .f32⟩
  | 47 => ⟨S1700000x128, .f32⟩
  | 48 => ⟨S_, .f32⟩
  | 49 => ⟨S100000x128, .f32⟩
  | 50 => ⟨S1700000x1, .i32⟩
  | 51 => ⟨S100000x128, .f32⟩
  | 52 => ⟨S1x128, .f32⟩
  | 53 => ⟨S1x125, .f32⟩
  | 54 => ⟨S1x128, .f32⟩
  | 55 => ⟨S1x2, .f32⟩
  | 56 => ⟨S100000x2, .f32⟩
  | 57 => ⟨S_, .f32⟩
  | 58 => ⟨S64x2, .f32⟩
  | 59 => ⟨S100000x1, .i32⟩
  | 60 => ⟨S64x2, .f32⟩
  | 61 => ⟨S_, .f32⟩
  | 62 => ⟨S100000, .f32⟩
  | 63 => ⟨S_, .f32⟩
  | 64 => ⟨S64, .f32⟩
  | 65 => ⟨S100000x1, .i32⟩
  | 66 => ⟨S64, .f32⟩
  | 67 => ⟨S_, .f32⟩
  | 68 => ⟨S64, .f32⟩
  | 69 => ⟨S64, .f32⟩
  | 70 => ⟨S64x1, .f32⟩
  | 71 => ⟨S64x2, .f32⟩
  | 72 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S128x125, .f32⟩
  | .local _ .vmem, ⟨21, _⟩ => ⟨S1x125, .f32⟩
  | .local _ .vmem, ⟨22, _⟩ => ⟨S125x128, .f32⟩
  | .local _ .vmem, ⟨23, _⟩ => ⟨S1x128, .f32⟩
  | .local _ .vmem, ⟨24, _⟩ => ⟨S128x2, .f32⟩
  | .local _ .vmem, ⟨25, _⟩ => ⟨S1x2, .f32⟩
  | .local _ .vmem, ⟨26, _⟩ => ⟨S2000x2, .f32⟩
  | .local _ .vmem, ⟨27, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v56 : Ref sig .tc := ⟨.hbm, 90, rfl⟩
abbrev main_c_13 : Ref sig .tc := ⟨.hbm, 91, rfl⟩
abbrev main_v57 : Ref sig .tc := ⟨.hbm, 92, rfl⟩
abbrev main_v58 : Ref sig .tc := ⟨.hbm, 93, rfl⟩
abbrev main_c_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_15 : Ref sig .tc := ⟨.hbm, 100, rfl⟩
abbrev main_v64 : Ref sig .tc := ⟨.hbm, 101, rfl⟩
abbrev main_v65 : Ref sig .tc := ⟨.hbm, 102, rfl⟩
abbrev main_c_16 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_17 : Ref sig .tc := ⟨.hbm, 110, rfl⟩
abbrev main_v72 : Ref sig .tc := ⟨.hbm, 111, rfl⟩
abbrev main_v73 : Ref sig .tc := ⟨.hbm, 112, rfl⟩
abbrev main_c_18 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_19 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_call2_v0 : Ref sig .tc := ⟨.hbm, 142, rfl⟩
abbrev main_call2_v1 : Ref sig .tc := ⟨.hbm, 143, rfl⟩
abbrev main_v97 : Ref sig .tc := ⟨.hbm, 144, rfl⟩
abbrev main_c_24 : Ref sig .tc := ⟨.hbm, 145, rfl⟩
abbrev main_v98 : Ref sig .tc := ⟨.hbm, 146, rfl⟩
abbrev main_v99 : Ref sig .tc := ⟨.hbm, 147, rfl⟩
abbrev main_c_25 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_26 : Ref sig .tc := ⟨.hbm, 154, rfl⟩
abbrev main_v105 : Ref sig .tc := ⟨.hbm, 155, rfl⟩
abbrev main_v106 : Ref sig .tc := ⟨.hbm, 156, rfl⟩
abbrev main_c_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_28 : Ref sig .tc := ⟨.hbm, 164, rfl⟩
abbrev main_v113 : Ref sig .tc := ⟨.hbm, 165, rfl⟩
abbrev main_v114 : Ref sig .tc := ⟨.hbm, 166, rfl⟩
abbrev main_c_29 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_31 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_32 : Ref sig .tc := ⟨.hbm, 189, rfl⟩
abbrev main_v134 : Ref sig .tc := ⟨.hbm, 190, rfl⟩
abbrev main_cst_33 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_34 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem8_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x125 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x125 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S125x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x2 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S125_S1x125 : S125.ShapeCasts S1x125
  shapeCasts_S2_S1x2 : S2.ShapeCasts S1x2
  inb_S128x125_S128x125_0_0 : ∀ a, (![0, 0] : Fin 2 → Nat) a + S128x125.size a ≤ S128x125.size a
  h_S128x125 : 0 < S128x125.numel
  inb_S1x125_S1x125_0_0 : ∀ a, (![0, 0] : Fin 2 → Nat) a + S1x125.size a ≤ S1x125.size a
  h_S1x125 : 0 < S1x125.numel
  shapeCasts_S1x125_S1x125 : S1x125.ShapeCasts S1x125
  broadcasts_S1x125_S2000x125 : S1x125.Broadcasts S2000x125
  inb_S125x128_S125x128_0_0 : ∀ a, (![0, 0] : Fin 2 → Nat) a + S125x128.size a ≤ S125x128.size a
  h_S125x128 : 0 < S125x128.numel
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  bcast_S_S64x2 : S_.BroadcastsInDim S64x2 (![] : Fin 0 → Fin S64x2.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  dot_S2000x128_S128x128_S2000x128_1_0_0_1_n_n_wf : DotDims.WF S2000x128 S128x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x125_S2000x125_1_0_0_1_n_n_wf : DotDims.WF S2000x128 S128x125 S2000x125 [1] [0] [0] [1] [] []
  dot_S2000x125_S125x128_S2000x128_1_0_0_1_n_n_wf : DotDims.WF S2000x125 S125x128 S2000x128 [1] [0] [0] [1] [] []
  dot_S2000x128_S128x2_S2000x2_1_0_0_1_n_n_wf : DotDims.WF S2000x128 S128x2 S2000x2 [1] [0] [0] [1] [] []
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x125.size a ≤ S128x125.size a
  hwx3_2 : ∀ i : grid3.Coords, EltTy.bits .f32 = 32 ∨ (Rect.block (s := S128x125) S128x125.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x125.size a ≤ S1x125.size a
  hwx3_3 : ∀ i : grid3.Coords, EltTy.bits .f32 = 32 ∨ (Rect.block (s := S1x125) S1x125.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S125x128.size a ≤ S125x128.size a
  hwx3_4 : ∀ i : grid3.Coords, EltTy.bits .f32 = 32 ∨ (Rect.block (s := S125x128) S125x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x2.size a ≤ S128x2.size a
  hwx3_6 : ∀ i : grid3.Coords, EltTy.bits .f32 = 32 ∨ (Rect.block (s := S128x2) S128x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x2.size a ≤ S1x2.size a
  hwx3_7 : ∀ i : grid3.Coords, EltTy.bits .f32 = 32 ∨ (Rect.block (s := S1x2) S1x2.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x2.size a ≤ S100000x2.size a
  hwx3_8 : ∀ i : grid3.Coords, EltTy.bits .f32 = 32 ∨ (Rect.block (s := S100000x2) S2000x2.size (cc3_transform_8 i) (hinb3_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x125_S2000x125_1_0_0_1_n_n : DotDims S2000x128 S128x125 S2000x125 where
  lhsContracting := [1]
  rhsContracting := [0]
  lhsNonContracting := [0]
  rhsNonContracting := [1]
  lhsBatch := []
  rhsBatch := []
  wf := dot_S2000x128_S128x125_S2000x125_1_0_0_1_n_n_wf
def dot_S2000x125_S125x128_S2000x128_1_0_0_1_n_n : DotDims S2000x125 S125x128 S2000x128 where
  lhsContracting := [1]
  rhsContracting := [0]
  lhsNonContracting := [0]
  rhsNonContracting := [1]
  lhsBatch := []
  rhsBatch := []
  wf := dot_S2000x125_S125x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v84) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v125) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v126) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x125.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v127) S1x125.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S125x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v128) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S128x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v129) S1x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v130) S2000x2.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x125 : Shape := ⟨2, ![128, 125]⟩
abbrev S125 : Shape := ⟨1, ![125]⟩
abbrev S125x128 : Shape := ⟨2, ![125, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x125 : Shape := ⟨2, ![100000, 125]⟩
abbrev S1x125 : Shape := ⟨2, ![1, 125]⟩
abbrev S100000x2 : Shape := ⟨2, ![100000, 2]⟩
abbrev S1x2 : Shape := ⟨2, ![1, 2]⟩
abbrev S64x2 : Shape := ⟨2, ![64, 2]⟩
abbrev S100000x1 : Shape := ⟨2, ![100000, 1]⟩
abbrev S64 : Shape := ⟨1, ![64]⟩
abbrev S64x1 : Shape := ⟨2, ![64, 1]⟩

abbrev nBuf : Space → Nat
  | .hbm => 231
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x125, .f32⟩
  | 10 => ⟨S125, .f32⟩
  | 11 => ⟨S125x128, .f32⟩
  | 12 => ⟨S128, .f32⟩
  | 13 => ⟨S128x2, .f32⟩
  | 14 => ⟨S2, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S100000, .i32⟩
  | 80 => ⟨S1700000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x1, .f32⟩
  | 125 => ⟨S1700000x128, .f32⟩
  | 126 => ⟨S1700000x128, .f32⟩
  | 127 => ⟨S_, .f32⟩
  | _ => ⟨S100000x128, .f32⟩

abbrev hbmTy0_1 (i : Nat) : BufTy := match i % 128 with
  | 0 => ⟨S100000x128, .f32⟩
  | 1 => ⟨S1700000x1, .i32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S100000x125, .f32⟩
  | 66 => ⟨S1x125, .f32⟩
  | 67 => ⟨S100000x125, .f32⟩
  | 68 => ⟨S100000x125, .f32⟩
  | 69 => ⟨S_, .f32⟩
  | 70 => ⟨S100000x125, .f32⟩
  | 71 => ⟨S100000x125, .f32⟩
  | 72 => ⟨S100000x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x2, .f32⟩
  | 81 => ⟨S1x2, .f32⟩
  | 82 => ⟨S100000x2, .f32⟩
  | 83 => ⟨S100000x2, .f32⟩
  | 84 => ⟨S_, .f32⟩
  | 85 => ⟨S100000x2, .f32⟩
  | 86 => ⟨S100000x2, .f32⟩
  | 87 => ⟨S_, .f32⟩
  | 88 => ⟨S64x2, .f32⟩
  | 89 => ⟨S100000x1, .i32⟩
  | 90 => ⟨S64x2, .f32⟩
  | 91 => ⟨S_, .f32⟩
  | 92 => ⟨S100000, .f32⟩
  | 93 => ⟨S_, .f32⟩
  | 94 => ⟨S64, .f32⟩
  | 95 => ⟨S100000x1, .i32⟩
  | 96 => ⟨S64, .f32⟩
  | 97 => ⟨S_, .f32⟩
  | 98 => ⟨S64, .f32⟩
  | 99 => ⟨S64, .f32⟩
  | 100 => ⟨S64x1, .f32⟩
  | 101 => ⟨S64x2, .f32⟩
  | 102 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_15 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call3_cst : Ref sig .tc := ⟨.hbm, 134, rfl⟩
abbrev main_call3_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_22 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v103 : Ref sig .tc := ⟨.hbm, 154, rfl⟩
abbrev main_c_24 : Ref sig .tc := ⟨.hbm, 155, rfl⟩
abbrev main_v104 : Ref sig .tc := ⟨.hbm, 156, rfl⟩
abbrev main_v105 : Ref sig .tc := ⟨.hbm, 157, rfl⟩
abbrev main_c_25 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_26 : Ref sig .tc := ⟨.hbm, 164, rfl⟩
abbrev main_v111 : Ref sig .tc := ⟨.hbm, 165, rfl⟩
abbrev main_v112 : Ref sig .tc := ⟨.hbm, 166, rfl⟩
abbrev main_c_27 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c_28 : Ref sig .tc := ⟨.hbm, 174, rfl⟩
abbrev main_v119 : Ref sig .tc := ⟨.hbm, 175, rfl⟩
abbrev main_v120 : Ref sig .tc := ⟨.hbm, 176, rfl⟩
abbrev main_c_29 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_30 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_call5_cst : Ref sig .tc := ⟨.hbm, 197, rfl⟩
abbrev main_call5_v0 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_call6_cst : Ref sig .tc := ⟨.hbm, 205, rfl⟩
abbrev main_call6_v0 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_call7_cst : Ref sig .tc := ⟨.hbm, 212, rfl⟩
abbrev main_call7_v0 : Ref sig .tc := ⟨.hbm, 213, rfl⟩
abbrev main_v150 : Ref sig .tc := ⟨.hbm, 214, rfl⟩
abbrev main_cst_31 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_cst_32 : Ref sig .tc := ⟨.hbm, 219, rfl⟩
abbrev main_v154 : Ref sig .tc := ⟨.hbm, 220, rfl⟩
abbrev main_cst_33 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_34 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S125_S1x125_1 : S125.BroadcastsInDim S1x125 (![1] : Fin 1 → Fin S1x125.rank)
  bcast_S1x125_S100000x125_0_1 : S1x125.BroadcastsInDim S100000x125 (![0, 1] : Fin 2 → Fin S100000x125.rank)
  bcast_S_S100000x125 : S_.BroadcastsInDim S100000x125 (![] : Fin 0 → Fin S100000x125.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  bcast_S_S64x2 : S_.BroadcastsInDim S64x2 (![] : Fin 0 → Fin S64x2.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x125_S100000x125_1_0_0_1_n_n_wf : DotDims.WF S100000x128 S128x125 S100000x125 [1] [0] [0] [1] [] []
  dot_S100000x125_S125x128_S100000x128_1_0_0_1_n_n_wf : DotDims.WF S100000x125 S125x128 S100000x128 [1] [0] [0] [1] [] []
  dot_S100000x128_S128x2_S100000x2_1_0_0_1_n_n_wf : DotDims.WF S100000x128 S128x2 S100000x2 [1] [0] [0] [1] [] []
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x125_S100000x125_1_0_0_1_n_n : DotDims S100000x128 S128x125 S100000x125 where
  lhsContracting := [1]
  rhsContracting := [0]
  lhsNonContracting := [0]
  rhsNonContracting := [1]
  lhsBatch := []
  rhsBatch := []
  wf := dot_S100000x128_S128x125_S100000x125_1_0_0_1_n_n_wf
def dot_S100000x125_S125x128_S100000x128_1_0_0_1_n_n : DotDims S100000x125 S125x128 S100000x128 where
  lhsContracting := [1]
  rhsContracting := [0]
  lhsNonContracting := [0]
  rhsNonContracting := [1]
  lhsBatch := []
  rhsBatch := []
  wf := dot_S100000x125_S125x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel's run, with the result array kept.

  @main is fifteen segments: five stretches of host operations (three of them cut in three by a called
  function) around four pipelined regions. The contents of the TensorCore's buffers at every segment boundary
  are a fold from the launch memory: a host stretch rewrites the buffers its operations write, a region
  rewrites its windows' arrays with what its write-backs leave and keeps every other buffer. Every weakly
  fair execution terminates, and at the end every unscoped buffer holds the last valuation of that fold. The
  frame claim reads the fifteen argument arrays off that valuation; here the result array, the buffer of the
  final division, is read off it as well, so that its value can be computed from the fold.
-/
import proofs.«129497_j21380347199506_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last
    valuation of the fold of buffer contents through the segments, and the argument arrays end as launched. -/
theorem run_result : θ_run defs (onTc (τ := τ) (main (F := F))) ⟨m, fun _ => 0, ρ⟩ (fun r => ∀ c : Dev nD,
      r.2.mem ((c.tc : Thread nD τ).loc main_v142) = W15 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v142 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.Run

end
-- ==== Proof.MatmulAt.lean ====
/-
  A matrix product of the kernel bodies read at an index, on the extended reals.

  Each body multiplies a block of 2000 rows by a whole weight matrix and accumulates into zeros. At the ideal
  values such a product is, entry by entry, the plain sum over the contracted axis of the products of the
  operands' entries: the contraction record's index type is re-indexed to the literal range of the contracted
  axis, and the operands' indices at an output index are (row, k) and (k, column). Four contraction shapes
  occur: 128 to 128 (the three graph layers), 128 to 125, 125 to 128 and 128 to 2 (the dense head).
-/
import proofs.«129497_j21380347199506_1_alg».proof.Proof.Gen.KernelIdeal
import Idealize.ShloMosaic.Lib.ValueIdx
import Idealize.ShloMosaic.PureOps.Ideal.Laws

noncomputable section

namespace Cert.KernelIdeal.MatmulAt

open Cert.KernelIdeal Idealize.ShloMosaic

/-! ### A block of rows times a 128x128 weight -/

/-- The left operand's index for output index `j` and contraction position `k`: row `j 0`, column `k`. -/
abbrev lrow_128x128 (j : S2000x128.Idx) (k : Fin 128) : S2000x128.Idx :=
  ValueIdx.ix2 (n0 := 2000) (n1 := 128) ⟨(j 0).val, (j 0).isLt⟩ k
/-- The right operand's index: row `k`, column `j 1`. -/
abbrev rcol_128x128 (j : S2000x128.Idx) (k : Fin 128) : S128x128.Idx :=
  ValueIdx.ix2 (n0 := 128) (n1 := 128) k ⟨(j 1).val, (j 1).isLt⟩

theorem lhs_128x128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_128x128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_128x128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_128x128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- On the extended reals the product of a block of rows with the weight, accumulated into zeros, is at
    (row, column) the sum over `k` of row-entry `k` times the weight's entry (`k`, column): no rounding and no
    order of accumulation is left. -/
theorem matmul_128x128_apply {φ₁ φ₂ : FTy} (lhs : FVec Ideal S2000x128 φ₁) (rhs : FVec Ideal S128x128 φ₂) (j : S2000x128.Idx) :
    matmul dot_S2000x128_S128x128_S2000x128_1_0_0_1_n_n none lhs rhs (constant (F := Ideal) S2000x128 .f32 0x00000000#32) j
      = ∑ k : Fin 128, lhs (lrow_128x128 j k) * rhs (rcol_128x128 j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lrow_128x128 j k := funext fun a => Fin.ext (by
    match a with
    | ⟨0, _⟩ => exact lhs_128x128_0 _ _
    | ⟨1, _⟩ => exact (lhs_128x128_1 _ _).trans hk)
  have er : dot_S2000x128_S128x128_S2000x128_1_0_0_1_n_n.rhsIdx j ((ValueIdx.contrEquiv1 dot_S2000x128_S128x128_S2000x128_1_0_0_1_n_n 128 rfl rfl).symm k) = rcol_128x128 j k := funext fun a => Fin.ext (by
    match a with
    | ⟨0, _⟩ => exact (rhs_128x128_0 _ _).trans hk
    | ⟨1, _⟩ => exact rhs_128x128_1 _ _)
  rw [el, er]

/-! ### A block of rows times a 128x125 weight -/

/-- The left operand's index for output index `j` and contraction position `k`: row `j 0`, column `k`. -/
abbrev lrow_128x125 (j : S2000x125.Idx) (k : Fin 128) : S2000x128.Idx :=
  ValueIdx.ix2 (n0 := 2000) (n1 := 128) ⟨(j 0).val, (j 0).isLt⟩ k
/-- The right operand's index: row `k`, column `j 1`. -/
abbrev rcol_128x125 (j : S2000x125.Idx) (k : Fin 128) : S128x125.Idx :=
  ValueIdx.ix2 (n0 := 128) (n1 := 125) k ⟨(j 1).val, (j 1).isLt⟩

theorem lhs_128x125_0 (i : S2000x125.Idx) (q : dot_S2000x128_S128x125_S2000x125_1_0_0_1_n_n.contr.Idx) :
    (dot_S2000x128_S128x125_S2000x125_1_0_0_1_n_n.lhsIdx i q 0).val = (i 0).val := by
  unfold DotDims.lhsIdx
  rw [dif_neg (show ¬(0 : Fin S2000x128.rank) ∈ dot_S2000x128_S128x125_S2000x125_1_0_0_1_n_n.lhsBatch by decide), dif_pos (show (0 : Fin S2000x128.rank) ∈ dot_S2000x128_S128x125_S2000x125_1_0_0_1_n_n.lhsNonContracting by decide)]
  rfl
theorem lhs_128x125_1 (i : S2000x125.Idx) (q : dot_S2000x128_S128x125_S2000x125_1_0_0_1_n_n.contr.Idx) :
    (dot_S2000x128_S128x125_S2000x125_1_0_0_1_n_n.lhsIdx i q 1).val = (q ⟨0, by decide⟩).val :=
  dot_S2000x128_S128x125_S2000x125_1_0_0_1_n_n.lhsIdx_val_of_single rfl i q
theorem rhs_128x125_0 (i : S2000x125.Idx) (q : dot_S2000x128_S128x125_S2000x125_1_0_0_1_n_n.contr.Idx) :
    (dot_S2000x128_S128x125_S2000x125_1_0_0_1_n_n.rhsIdx i q 0).val = (q ⟨0, by decide⟩).val :=
  dot_S2000x128_S128x125_S2000x125_1_0_0_1_n_n.rhsIdx_val_of_single rfl i q
theorem rhs_128x125_1 (i : S2000x125.Idx) (q : dot_S2000x128_S128x125_S2000x125_1_0_0_1_n_n.contr.Idx) :
    (dot_S2000x128_S128x125_S2000x125_1_0_0_1_n_n.rhsIdx i q 1).val = (i 1).val := by
  unfold DotDims.rhsIdx
  rw [dif_neg (show ¬(1 : Fin S128x125.rank) ∈ dot_S2000x128_S128x125_S2000x125_1_0_0_1_n_n.rhsBatch by decide), dif_pos (show (1 : Fin S128x125.rank) ∈ dot_S2000x128_S128x125_S2000x125_1_0_0_1_n_n.rhsNonContracting by decide)]
  rfl

/-- On the extended reals the product of a block of rows with the weight, accumulated into zeros, is at
    (row, column) the sum over `k` of row-entry `k` times the weight's entry (`k`, column): no rounding and no
    order of accumulation is left. -/
theorem matmul_128x125_apply {φ₁ φ₂ : FTy} (lhs : FVec Ideal S2000x128 φ₁) (rhs : FVec Ideal S128x125 φ₂) (j : S2000x125.Idx) :
    matmul dot_S2000x128_S128x125_S2000x125_1_0_0_1_n_n none lhs rhs (constant (F := Ideal) S2000x125 .f32 0x00000000#32) j
      = ∑ k : Fin 128, lhs (lrow_128x125 j k) * rhs (rcol_128x125 j k) := by
  simp only [matmul]
  rw [Ideal.matmul_constant_zero_apply, ← Equiv.sum_comp (ValueIdx.contrEquiv1 dot_S2000x128_S128x125_S2000x125_1_0_0_1_n_n 128 rfl rfl).symm]
  refine Finset.sum_congr rfl fun k _ => ?_
  have hk := ValueIdx.contrEquiv1_symm_val dot_S2000x128_S128x125_S2000x125_1_0_0_1_n_n 128 rfl rfl k
  have el : dot_S2000x128_S128x125_S2000x125_1_0_0_1_n_n.lhsIdx j ((ValueIdx.contrEquiv1 dot_S2000x128_S128x125_S2000x125_1_0_0_1_n_n 128 rfl rfl).symm k) = lrow_128x125 j k := funext fun a => Fin.ext (by
    match a with
    | ⟨0, _⟩ => exact lhs_128x125_0 _ _
    | ⟨1, _⟩ => exact (lhs_128x125_1 _ _).trans hk)
  have er : dot_S2000x128_S128x125_S2000x125_1_0_0_1_n_n.rhsIdx j ((ValueIdx.contrEquiv1 dot_S2000x128_S128x125_S2000x125_1_0_0_1_n_n 128 rfl rfl).symm k) = rcol_128x125 j k := funext fun a => Fin.ext (by
    match a with
    | ⟨0, _⟩ => exact (rhs_128x125_0 _ _).trans hk
    | ⟨1, _⟩ => exact rhs_128x125_1 _ _)
  rw [el, er]

/-! ### A block of rows times a 125x128 weight -/

/-- The left operand's index for output index `j` and contraction position `k`: row `j 0`, column `k`. -/
abbrev lrow_125x128 (j : S2000x128.Idx) (k : Fin 125) : S2000x125.Idx :=
  ValueIdx.ix2 (n0 := 2000) (n1 := 125) ⟨(j 0).val, (j 0).isLt⟩ k
/-- The right operand's index: row `k`, column `j 1`. -/
abbrev rcol_125x128 (j : S2000x128.Idx) (k : Fin 125) : S125x128.Idx :=
  ValueIdx.ix2 (n0 := 125) (n1 := 128) k ⟨(j 1).val, (j 1).isLt⟩

theorem lhs_125x128_0 (i : S2000x128.Idx) (q : dot_S2000x125_S125x128_S2000x128_1_0_0_1_n_n.contr.Idx) :
    (dot_S2000x125_S125x128_S2000x128_1_0_0_1_n_n.lhsIdx i q 0).val = (i 0).val := by
  unfold DotDims.lhsIdx
  rw [dif_neg (show ¬(0 : Fin S2000x125.rank) ∈ dot_S2000x125_S125x128_S2000x128_1_0_0_1_n_n.lhsBatch by decide), dif_pos (show (0 : Fin S2000x125.rank) ∈ dot_S2000x125_S125x128_S2000x128_1_0_0_1_n_n.lhsNonContracting by decide)]
  rfl
theorem lhs_125x128_1 (i : S2000x128.Idx) (q : dot_S2000x125_S125x128_S2000x128_1_0_0_1_n_n.contr.Idx) :
    (dot_S2000x125_S125x128_S2000x128_1_0_0_1_n_n.lhsIdx i q 1).val = (q ⟨0, by decide⟩).val :=
  dot_S2000x125_S125x128_S2000x128_1_0_0_1_n_n.lhsIdx_val_of_single rfl i q
theorem rhs_125x128_0 (i : S2000x128.Idx) (q : dot_S2000x125_S125x128_S2000x128_1_0_0_1_n_n.contr.Idx) :
    (dot_S2000x125_S125x128_S2000x128_1_0_0_1_n_n.rhsIdx i q 0).val = (q ⟨0, by decide⟩).val :=
  dot_S2000x125_S125x128_S2000x128_1_0_0_1_n_n.rhsIdx_val_of_single rfl i q
theorem rhs_125x128_1 (i : S2000x128.Idx) (q : dot_S2000x125_S125x128_S2000x128_1_0_0_1_n_n.contr.Idx) :
    (dot_S2000x125_S125x128_S2000x128_1_0_0_1_n_n.rhsIdx i q 1).val = (i 1).val := by
  unfold DotDims.rhsIdx
  rw [dif_neg (show ¬(1 : Fin S125x128.rank) ∈ dot_S2000x125_S125x128_S2000x128_1_0_0_1_n_n.rhsBatch by decide), dif_pos (show (1 : Fin S125x128.rank) ∈ dot_S2000x125_S125x128_S2000x128_1_0_0_1_n_n.rhsNonContracting by decide)]
  rfl

/-- On the extended reals the product of a block of rows with the weight, accumulated into zeros, is at
    (row, column) the sum over `k` of row-entry `k` times the weight's entry (`k`, column): no rounding and no
    order of accumulation is left. -/
theorem matmul_125x128_apply {φ₁ φ₂ : FTy} (lhs : FVec Ideal S2000x125 φ₁) (rhs : FVec Ideal S125x128 φ₂) (j : S2000x128.Idx) :
    matmul dot_S2000x125_S125x128_S2000x128_1_0_0_1_n_n none lhs rhs (constant (F := Ideal) S2000x128 .f32 0x00000000#32) j
      = ∑ k : Fin 125, lhs (lrow_125x128 j k) * rhs (rcol_125x128 j k) := by
  simp only [matmul]
  rw [Ideal.matmul_constant_zero_apply, ← Equiv.sum_comp (ValueIdx.contrEquiv1 dot_S2000x125_S125x128_S2000x128_1_0_0_1_n_n 125 rfl rfl).symm]
  refine Finset.sum_congr rfl fun k _ => ?_
  have hk := ValueIdx.contrEquiv1_symm_val dot_S2000x125_S125x128_S2000x128_1_0_0_1_n_n 125 rfl rfl k
  have el : dot_S2000x125_S125x128_S2000x128_1_0_0_1_n_n.lhsIdx j ((ValueIdx.contrEquiv1 dot_S2000x125_S125x128_S2000x128_1_0_0_1_n_n 125 rfl rfl).symm k) = lrow_125x128 j k := funext fun a => Fin.ext (by
    match a with
    | ⟨0, _⟩ => exact lhs_125x128_0 _ _
    | ⟨1, _⟩ => exact (lhs_125x128_1 _ _).trans hk)
  have er : dot_S2000x125_S125x128_S2000x128_1_0_0_1_n_n.rhsIdx j ((ValueIdx.contrEquiv1 dot_S2000x125_S125x128_S2000x128_1_0_0_1_n_n 125 rfl rfl).symm k) = rcol_125x128 j k := funext fun a => Fin.ext (by
    match a with
    | ⟨0, _⟩ => exact (rhs_125x128_0 _ _).trans hk
    | ⟨1, _⟩ => exact rhs_125x128_1 _ _)
  rw [el, er]

/-! ### A block of rows times a 128x2 weight -/

/-- The left operand's index for output index `j` and contraction position `k`: row `j 0`, column `k`. -/
abbrev lrow_128x2 (j : S2000x2.Idx) (k : Fin 128) : S2000x128.Idx :=
  ValueIdx.ix2 (n0 := 2000) (n1 := 128) ⟨(j 0).val, (j 0).isLt⟩ k
/-- The right operand's index: row `k`, column `j 1`. -/
abbrev rcol_128x2 (j : S2000x2.Idx) (k : Fin 128) : S128x2.Idx :=
  ValueIdx.ix2 (n0 := 128) (n1 := 2) k ⟨(j 1).val, (j 1).isLt⟩

theorem lhs_128x2_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_128x2_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_128x2_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_128x2_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- On the extended reals the product of a block of rows with the weight, accumulated into zeros, is at
    (row, column) the sum over `k` of row-entry `k` times the weight's entry (`k`, column): no rounding and no
    order of accumulation is left. -/
theorem matmul_128x2_apply {φ₁ φ₂ : FTy} (lhs : FVec Ideal S2000x128 φ₁) (rhs : FVec Ideal S128x2 φ₂) (j : S2000x2.Idx) :
    matmul dot_S2000x128_S128x2_S2000x2_1_0_0_1_n_n none lhs rhs (constant (F := Ideal) S2000x2 .f32 0x00000000#32) j
      = ∑ k : Fin 128, lhs (lrow_128x2 j k) * rhs (rcol_128x2 j k) := by
  simp only [matmul]
  rw [Ideal.matmul_constant_zero_apply, ← Equiv.sum_comp (ValueIdx.contrEquiv1 dot_S2000x128_S128x2_S2000x2_1_0_0_1_n_n 128 rfl rfl).symm]
  refine Finset.sum_congr rfl fun k _ => ?_
  have hk := ValueIdx.contrEquiv1_symm_val dot_S2000x128_S128x2_S2000x2_1_0_0_1_n_n 128 rfl rfl k
  have el : dot_S2000x128_S128x2_S2000x2_1_0_0_1_n_n.lhsIdx j ((ValueIdx.contrEquiv1 dot_S2000x128_S128x2_S2000x2_1_0_0_1_n_n 128 rfl rfl).symm k) = lrow_128x2 j k := funext fun a => Fin.ext (by
    match a with
    | ⟨0, _⟩ => exact lhs_128x2_0 _ _
    | ⟨1, _⟩ => exact (lhs_128x2_1 _ _).trans hk)
  have er : dot_S2000x128_S128x2_S2000x2_1_0_0_1_n_n.rhsIdx j ((ValueIdx.contrEquiv1 dot_S2000x128_S128x2_S2000x2_1_0_0_1_n_n 128 rfl rfl).symm k) = rcol_128x2 j k := funext fun a => Fin.ext (by
    match a with
    | ⟨0, _⟩ => exact (rhs_128x2_0 _ _).trans hk
    | ⟨1, _⟩ => exact rhs_128x2_1 _ _)
  rw [el, er]

end Cert.KernelIdeal.MatmulAt

end
-- ==== Proof.Layer0.lean ====
/-
  The first region: a block of 2000 rows of the node features times the first weight matrix.

  Grid point `t` of 50 stages rows 2000·t … 2000·t + 1999 of the feature array (all 128 columns) and the whole
  128×128 weight, multiplies them into a zero accumulator and writes the 2000×128 product back to the same rows
  of the output array. The blocks tile the output's 100000 rows, so after the region the output array is, entry
  by entry, the sum over `k` of feature (row, k) times weight (k, column) — the reference's whole-array product
  of the two arrays as the region finds them, read at an index.
-/
import proofs.«129497_j21380347199506_1_alg».proof.Proof.Gen.KernelIdeal.Frame
import proofs.«129497_j21380347199506_1_alg».proof.Proof.RefReadP
import proofs.«129497_j21380347199506_1_alg».proof.Proof.MatmulAt
import Idealize.ShloMosaic.Lib.Pipeline.Value

set_option maxRecDepth 16384

noncomputable section

namespace Cert.KernelIdeal.Layer0

open Cert.KernelIdeal Cert.KernelIdeal.Gen Cert.KernelIdeal.MatmulAt
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at an index of the block: the sum over `k` of the loaded rows' entry (row, k) times the
    loaded weight's entry (k, column); the change of format before the product is the identity at the ideal
    values. -/
theorem product_apply (x0 : Vec Ideal S2000x128 .f32) (x1 : Vec Ideal S128x128 .f32) (j : S2000x128.Idx) :
    k0_pay1 (F := Ideal) x0 x1 j = ∑ k : Fin 128, x0 (lrow_128x128 j k) * x1 (rcol_128x128 j k) := by
  unfold k0_pay1
  exact matmul_128x128_apply (φ₁ := .bf16) (φ₂ := .bf16) (truncf .bf16 x0 bitsLt_bf16_f32) (truncf .bf16 x1 bitsLt_bf16_f32) j

/-- The printed index maps over the grid: the row windows sit at block (t, 0), the weight at block (0, 0). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product of the arrays the region finds. -/
theorem written_back (c : Dev nD) (t : Fin cfg0.N) :
    (dat0 V c).flushed 2 t = ((cfg0.win 2).blk t).view.read (Elt Ideal)
      (Cert.ReferenceIdeal.ReadP.val_main_v4 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := block_positions t
  funext j
  show k0_pay1 (iblk0 V c 0 t) (iblk0 V c 1 t) j
    = Cert.ReferenceIdeal.ReadP.val_main_v4 (F := Ideal) (V c main_arg0) (V c main_arg3) (((cfg0.win 2).blk t).view.emb j)
  rw [Cert.ReferenceIdeal.ReadP.val_main_v4_apply]
  refine (product_apply (iblk0 V c 0 t) (iblk0 V c 1 t) j).trans (Finset.sum_congr rfl fun k _ => ?_)
  have hl : iblk0 V c 0 t (lrow_128x128 j k)
      = V c main_arg0 (Cert.ReferenceIdeal.ReadP.lidx_main_v4 (((cfg0.win 2).blk t).view.emb j) k) := by
    show V c main_arg0 (((cfg0.win 0).blk t).view.emb (lrow_128x128 j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hr : iblk0 V c 1 t (rcol_128x128 j k)
      = V c main_arg3 (Cert.ReferenceIdeal.ReadP.ridx_main_v4 (((cfg0.win 2).blk t).view.emb j) k) := by
    show V c main_arg3 (((cfg0.win 1).blk t).view.emb (rcol_128x128 j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- An index of the output array is in point `t`'s block iff each coordinate is in the block's range. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Every row is in some point's block: row `r` is in block `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨e0, e1, e2, e3, e4, e5⟩ := block_positions ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e5]; omega

/-- THE OUTPUT ARRAY after the region: the whole-array product of the two input arrays as the region finds them. -/
theorem output (c : Dev nD) :
    (dat0 V c).arrAt 2 cfg0.N = Cert.ReferenceIdeal.ReadP.val_main_v4 (F := Ideal) (V c main_arg0) (V c main_arg3) :=
  (dat0 V c).arrAt_eq_of_cover 2 _ (fun t _ => written_back V c t) covered

end Cert.KernelIdeal.Layer0

end
-- ==== Proof.LibViewRead.lean ====
/-
  Reading an array through a view, without reducing the view's cast.

  A view reads its buffer's contents `f` as `fun x => cast _ (f (v.emb x))`, the cast being along the equation
  between the buffer's element type and the view's. To show that such a reading is a given function `g` it is
  enough that `f (v.emb x)` is `g x` for every index `x` — heterogeneously, so that the cast is never reduced:
  a cast is heterogeneously equal to its argument whatever its equation is.
-/
import Idealize.ShloMosaic.Signature.View

namespace Idealize.ShloMosaic.View

/-- A view's reading of contents `f` is `g` as soon as `f` at the embedded index is `g` at the index, for every
    index. The hypothesis is a heterogeneous equality because the two sides' element types are equal only
    through the view's element-type equation; when both are the same literal type, `heq_of_eq` of a plain
    equation supplies it. -/
theorem read_eq_of_forall_heq {sig : RefSig} {κ : Kind} {sp : Space} {S : Shape} {e : EltTy}
    (v : View sig κ sp S e) {Val : EltTy → Type} (f : v.ty.Contents Val) (g : S.Idx → Val e)
    (h : ∀ x : S.Idx, HEq (f (v.emb x)) (g x)) : v.read Val f = g :=
  funext fun x => eq_of_heq ((cast_heq _ _).trans (h x))

/-- The pointwise form: a view's reading of `f` at `x` is `y` as soon as `f` at the embedded index is `y`. -/
theorem read_apply_eq_of_heq {sig : RefSig} {κ : Kind} {sp : Space} {S : Shape} {e : EltTy}
    (v : View sig κ sp S e) {Val : EltTy → Type} (f : v.ty.Contents Val) (x : S.Idx) (y : Val e)
    (h : HEq (f (v.emb x)) y) : v.read Val f x = y :=
  eq_of_heq ((cast_heq _ _).trans h)

end Idealize.ShloMosaic.View
-- ==== Proof.Layer1.lean ====
/-
  The second region: relu of (first aggregate + first bias), times the second weight matrix.

  Grid point `t` of 50 stages rows 2000·t … 2000·t + 1999 of the aggregated features, the bias as one row of 128
  and the whole 128×128 weight; the body adds the bias to every row, takes the maximum with zero, multiplies by
  the weight into a zero accumulator and writes the 2000×128 product back to the same rows of the output array.
  The blocks tile the 100000 rows. So if the aggregated array the region finds is the reference's aggregate and
  the bias row is the bias vector laid out as one row, the output array is the reference's next whole-array
  product: entry (row, column) is the sum over `k` of max(aggregate (row, k) + bias k, 0) times weight (k, column).
-/
import proofs.«129497_j21380347199506_1_alg».proof.Proof.Gen.KernelIdeal.Frame
import proofs.«129497_j21380347199506_1_alg».proof.Proof.RefReadP
import proofs.«129497_j21380347199506_1_alg».proof.Proof.MatmulAt
import proofs.«129497_j21380347199506_1_alg».proof.Proof.LibViewRead
import Idealize.ShloMosaic.Lib.Pipeline.Value
import Idealize.ShloMosaic.Lib.ValueLayout

set_option maxRecDepth 16384

noncomputable section

namespace Cert.KernelIdeal.Layer1

open Cert.KernelIdeal Cert.KernelIdeal.Gen Cert.KernelIdeal.MatmulAt
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The left factor of the body's product at (row `p`, position `k`): the loaded entry plus the bias row's entry
    `k`, cut off below at zero. (The casts to the same shape are the identity; the bias row is broadcast down the
    rows.) -/
theorem left_factor (x0 : Vec Ideal S2000x128 .f32) (x1 : Vec Ideal S1x128 .f32) (p : Fin 2000) (k : Fin 128) :
    (maximumf (addf (shapeCast S2000x128 x0 shapeCasts_S2000x128_S2000x128)
        (broadcastTo S2000x128 (shapeCast S1x128 x1 shapeCasts_S1x128_S1x128) broadcasts_S1x128_S2000x128))
      (broadcast S2000x128 (Scalar.ofBits (F := Ideal) .f32 0x00000000#32))) (ix2 p k)
    = FloatOps.maximumf (F := Ideal) (φ := .f32) (FloatOps.addf (F := Ideal) (φ := .f32) (x0 (ix2 p k)) (x1 (ix2 (0 : Fin 1) k))) (FloatOps.ofBits (F := Ideal) .f32 0x00000000#32) := by
  show FloatOps.maximumf (F := Ideal) (φ := .f32) (FloatOps.addf (F := Ideal) (φ := .f32) (shapeCast S2000x128 x0 shapeCasts_S2000x128_S2000x128 (ix2 p k))
      (broadcastTo S2000x128 (shapeCast S1x128 x1 shapeCasts_S1x128_S1x128) broadcasts_S1x128_S2000x128 (ix2 p k))) _ = _
  rw [shapeCast_self, shapeCast_self, ValueIdx.broadcastTo_1b_ab_apply]
  rfl

/-- The body's product at an index of the block. -/
theorem product_apply (x0 : Vec Ideal S2000x128 .f32) (x1 : Vec Ideal S1x128 .f32) (x2 : Vec Ideal S128x128 .f32) (j : S2000x128.Idx) :
    k1_pay1 (F := Ideal) x0 x1 x2 j
      = ∑ k : Fin 128, FloatOps.maximumf (F := Ideal) (φ := .f32) (FloatOps.addf (F := Ideal) (φ := .f32) (x0 (lrow_128x128 j k)) (x1 (ix2 (0 : Fin 1) k))) (FloatOps.ofBits (F := Ideal) .f32 0x00000000#32)
          * x2 (rcol_128x128 j k) := by
  unfold k1_pay1
  refine (matmul_128x128_apply (φ₁ := .bf16) (φ₂ := .bf16) _ _ j).trans (Finset.sum_congr rfl fun k _ => ?_)
  exact congrArg (· * x2 (rcol_128x128 j k)) (left_factor x0 x1 ⟨(j 0).val, (j 0).isLt⟩ k)

/-- The printed index maps over the grid: the row windows sit at block (t, 0), the bias and the weight at (0, 0). -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The reference's left factor at an index: its relu of (aggregate plus broadcast bias), read entry by entry. -/
theorem reference_left (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (l : Cert.ReferenceIdeal.S100000x128.Idx) :
    Cert.ReferenceIdeal.ReadP.val_main_v47 (F := Ideal) x0 x1 x3 x4 l
      = FloatOps.maximumf (F := Ideal) (φ := .f32) (FloatOps.addf (F := Ideal) (φ := .f32) (Cert.ReferenceIdeal.ReadP.val_main_v43 (F := Ideal) x0 x1 x3 l)
          (x4 (Cert.ReferenceIdeal.ReadP.idx_main_v44 (Cert.ReferenceIdeal.ReadP.idx_main_v45 l)))) (FloatOps.ofBits (F := Ideal) .f32 0x00000000#32) := by
  rw [Cert.ReferenceIdeal.ReadP.val_main_v47_apply, Cert.ReferenceIdeal.ReadP.val_main_v46_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]

/-- What point `t` writes back is block `t` of the reference's next product. -/
theorem written_back (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (c : Dev nD)
    (hA : V c main_v43 = Cert.ReferenceIdeal.ReadP.val_main_v43 (F := Ideal) x0 x1 x3)
    (hb : V c main_v44 = shapeCast S1x128 x4 shapeCasts_S128_S1x128)
    (hW : V c main_arg5 = x5) (t : Fin cfg1.N) :
    (dat1 V c).flushed 3 t = ((cfg1.win 3).blk t).view.read (Elt Ideal)
      (Cert.ReferenceIdeal.ReadP.val_main_v48 (F := Ideal) x0 x1 x3 x4 x5) := by
  generalize hG : Cert.ReferenceIdeal.ReadP.val_main_v48 (F := Ideal) x0 x1 x3 x4 x5 = G
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S1x128) zero_offsets, View.ld_unit_zero (S := S128x128) zero_offsets]
  obtain ⟨e0, e1, e2, e3, e4, e5, e6, e7⟩ := block_positions t
  generalize hP : k1_pay1 (iblk1 V c 0 t) (iblk1 V c 1 t) (iblk1 V c 2 t) = P
  suffices key : ∀ j : S2000x128.Idx, P j = G (((cfg1.win 3).blk t).view.emb j) from
    (View.read_eq_of_forall_heq ((cfg1.win 3).blk t).view G ((cfg1.win 3).cut (grid1.coords t) P)
      (fun j => heq_of_eq (key j).symm)).symm
  intro j
  subst hP hG
  rw [Cert.ReferenceIdeal.ReadP.val_main_v48_apply]
  refine (product_apply (iblk1 V c 0 t) (iblk1 V c 1 t) (iblk1 V c 2 t) j).trans (Finset.sum_congr rfl fun k _ => ?_)
  rw [reference_left]
  have hl : iblk1 V c 0 t (lrow_128x128 j k) = V c main_v43 (Cert.ReferenceIdeal.ReadP.lidx_main_v48 (((cfg1.win 3).blk t).view.emb j) k) := by
    refine View.read_apply_eq_of_heq _ _ _ _ (heq_of_eq ?_)
    show V c main_v43 (((cfg1.win 0).blk t).view.emb (lrow_128x128 j k)) = _
    refine congrArg _ (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have hbias : iblk1 V c 1 t (ix2 (0 : Fin 1) k) = x4 (Cert.ReferenceIdeal.ReadP.idx_main_v44 (Cert.ReferenceIdeal.ReadP.idx_main_v45 (Cert.ReferenceIdeal.ReadP.lidx_main_v48 (((cfg1.win 3).blk t).view.emb j) k))) := by
    refine View.read_apply_eq_of_heq _ _ _ _ (heq_of_eq ?_)
    show V c main_v44 (((cfg1.win 1).blk t).view.emb (ix2 (0 : Fin 1) k)) = _
    rw [hb]
    have hix : ((cfg1.win 1).blk t).view.emb (ix2 (0 : Fin 1) k) = ix2 (0 : Fin 1) k := by
      funext a; apply Fin.ext
      match a with
      | ⟨0, _⟩ => show win1_1.index t (0 : Fin 2) * 1 + 1 * 0 = 0; omega
      | ⟨1, _⟩ => show win1_1.index t (1 : Fin 2) * 128 + 1 * k.val = k.val; omega
    rw [hix, ValueIdx.shapeCast_a_1a_apply]
    exact congrArg _ (funext fun a => by match a with | ⟨0, _⟩ => rfl)
  have hr : iblk1 V c 2 t (rcol_128x128 j k) = V c main_arg5 (Cert.ReferenceIdeal.ReadP.ridx_main_v48 (((cfg1.win 3).blk t).view.emb j) k) := by
    refine View.read_apply_eq_of_heq _ _ _ _ (heq_of_eq ?_)
    show V c main_arg5 (((cfg1.win 2).blk t).view.emb (rcol_128x128 j k)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [hl, hbias, hr, hA, hW]

/-- An index of the output array is in point `t`'s block iff each coordinate is in the block's range. -/
theorem mem_block (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v45).slice (win1_3.rect t)).set ↔ _
  rw [View.set_slice_whole, Rect.mem_set_unit]
  exact Iff.rfl

/-- Every row is in some point's block: row `r` is in block `r / 2000`. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨e0, e1, e2, e3, e4, e5, e6, e7⟩ := block_positions ⟨(i 0).val / 2000, hlt⟩
  refine ⟨⟨(i 0).val / 2000, hlt⟩, flush1_3 _, ?_⟩
  rw [mem_block]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hlt⟩ (1 : Fin 2) * 128 ≤ (i 1).val ∧ (i 1).val < win1_3.index ⟨(i 0).val / 2000, hlt⟩ (1 : Fin 2) * 128 + 128
    rw [e7]; omega

/-- THE OUTPUT ARRAY after the region: the reference's next whole-array product. -/
theorem output (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (c : Dev nD)
    (hA : V c main_v43 = Cert.ReferenceIdeal.ReadP.val_main_v43 (F := Ideal) x0 x1 x3)
    (hb : V c main_v44 = shapeCast S1x128 x4 shapeCasts_S128_S1x128)
    (hW : V c main_arg5 = x5) :
    (dat1 V c).arrAt 3 cfg1.N = Cert.ReferenceIdeal.ReadP.val_main_v48 (F := Ideal) x0 x1 x3 x4 x5 :=
  (dat1 V c).arrAt_eq_of_cover 3 _ (fun t _ => written_back V x0 x1 x3 x4 x5 c hA hb hW t) covered

end Cert.KernelIdeal.Layer1

end
-- ==== Proof.FoldA.lean ====
/-
  The fold of buffer contents through @main, first part: from the launch to the second region's exit.

  The contents of the TensorCore's buffers at each segment boundary are computed from the launch memory: a stretch
  of host operations rewrites the buffers its operations write and keeps the rest; a region rewrites its windows'
  arrays and keeps the rest. Each buffer a later segment reads is followed here to the boundary where it is
  read, and stated as a stage of the reference program applied to the arguments as launched:
    · the two rows of the edge list, sliced once at the start, are read again by every layer's aggregation;
    · each bias and weight argument is untouched until the region that stages it;
    · the first region's output is the reference's first product (the layer lemma);
    · the first aggregation — self-loops appended, degrees counted by a scatter of ones, the inverse square
      roots gathered at both ends of every edge, the gathered rows scaled and scattered to their targets — is
      the same forty-odd host operations in both programs, applied to the same product, so the two terms are
      one term and are never opened;
    · the bias reshaped to one row, and the second region's output by its layer lemma.
-/
import proofs.«129497_j21380347199506_1_alg».proof.Proof.Gen.KernelIdeal.Frame
import proofs.«129497_j21380347199506_1_alg».proof.Proof.RefReadP
import proofs.«129497_j21380347199506_1_alg».proof.Proof.Layer0
import proofs.«129497_j21380347199506_1_alg».proof.Proof.Layer1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- Finishes the reads a single `simp` pass leaves inside the operand lists of a concatenation: each remaining
    "operation's result read at a buffer" is rewritten to the operation's value (at its own buffer) or to the
    contents before it (at any other), one pattern at a time. -/
macro "reads_in_lists" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable (m : (ℓ : Loc nD τ sig) → Buf (Elt Ideal) ℓ) (ρ : Dev nD → PrngReg) (c : Dev nD)

/-! ## The arguments as launched -/

/-- Argument 0 as launched, on core `c`. -/
abbrev A0 : (⟨Cert.ReferenceIdeal.S100000x128, .f32⟩ : BufTy).Contents (Elt Ideal) := m ((c : Thread nD τ).loc main_arg0)
/-- Argument 1 as launched, on core `c`. -/
abbrev A1 : (⟨Cert.ReferenceIdeal.S2x1600000, .i32⟩ : BufTy).Contents (Elt Ideal) := m ((c : Thread nD τ).loc main_arg1)
/-- Argument 2 as launched, on core `c`. -/
abbrev A2 : (⟨Cert.ReferenceIdeal.S100000, .i32⟩ : BufTy).Contents (Elt Ideal) := m ((c : Thread nD τ).loc main_arg2)
/-- Argument 3 as launched, on core `c`. -/
abbrev A3 : (⟨Cert.ReferenceIdeal.S128x128, .f32⟩ : BufTy).Contents (Elt Ideal) := m ((c : Thread nD τ).loc main_arg3)
/-- Argument 4 as launched, on core `c`. -/
abbrev A4 : (⟨Cert.ReferenceIdeal.S128, .f32⟩ : BufTy).Contents (Elt Ideal) := m ((c : Thread nD τ).loc main_arg4)
/-- Argument 5 as launched, on core `c`. -/
abbrev A5 : (⟨Cert.ReferenceIdeal.S128x128, .f32⟩ : BufTy).Contents (Elt Ideal) := m ((c : Thread nD τ).loc main_arg5)
/-- Argument 6 as launched, on core `c`. -/
abbrev A6 : (⟨Cert.ReferenceIdeal.S128, .f32⟩ : BufTy).Contents (Elt Ideal) := m ((c : Thread nD τ).loc main_arg6)
/-- Argument 7 as launched, on core `c`. -/
abbrev A7 : (⟨Cert.ReferenceIdeal.S128x128, .f32⟩ : BufTy).Contents (Elt Ideal) := m ((c : Thread nD τ).loc main_arg7)
/-- Argument 8 as launched, on core `c`. -/
abbrev A8 : (⟨Cert.ReferenceIdeal.S128, .f32⟩ : BufTy).Contents (Elt Ideal) := m ((c : Thread nD τ).loc main_arg8)
/-- Argument 9 as launched, on core `c`. -/
abbrev A9 : (⟨Cert.ReferenceIdeal.S128x125, .f32⟩ : BufTy).Contents (Elt Ideal) := m ((c : Thread nD τ).loc main_arg9)
/-- Argument 10 as launched, on core `c`. -/
abbrev A10 : (⟨Cert.ReferenceIdeal.S125, .f32⟩ : BufTy).Contents (Elt Ideal) := m ((c : Thread nD τ).loc main_arg10)
/-- Argument 11 as launched, on core `c`. -/
abbrev A11 : (⟨Cert.ReferenceIdeal.S125x128, .f32⟩ : BufTy).Contents (Elt Ideal) := m ((c : Thread nD τ).loc main_arg11)
/-- Argument 12 as launched, on core `c`. -/
abbrev A12 : (⟨Cert.ReferenceIdeal.S128, .f32⟩ : BufTy).Contents (Elt Ideal) := m ((c : Thread nD τ).loc main_arg12)
/-- Argument 13 as launched, on core `c`. -/
abbrev A13 : (⟨Cert.ReferenceIdeal.S128x2, .f32⟩ : BufTy).Contents (Elt Ideal) := m ((c : Thread nD τ).loc main_arg13)
/-- Argument 14 as launched, on core `c`. -/
abbrev A14 : (⟨Cert.ReferenceIdeal.S2, .f32⟩ : BufTy).Contents (Elt Ideal) := m ((c : Thread nD τ).loc main_arg14)

/-! ## After the first stretch: the two rows of the edge list, sliced and flattened -/

theorem W1_arg0 : W1 m ρ c (Proc.devRef .tc main_arg0) = A0 m c := by
  show StableHlo.after hostOps0 (W0 m ρ c) (Proc.devRef .tc main_arg0) = _
  after_results_simp <;> rfl
theorem W1_arg1 : W1 m ρ c (Proc.devRef .tc main_arg1) = A1 m c := by
  show StableHlo.after hostOps0 (W0 m ρ c) (Proc.devRef .tc main_arg1) = _
  after_results_simp <;> rfl
theorem W1_arg2 : W1 m ρ c (Proc.devRef .tc main_arg2) = A2 m c := by
  show StableHlo.after hostOps0 (W0 m ρ c) (Proc.devRef .tc main_arg2) = _
  after_results_simp <;> rfl
theorem W1_arg3 : W1 m ρ c (Proc.devRef .tc main_arg3) = A3 m c := by
  show StableHlo.after hostOps0 (W0 m ρ c) (Proc.devRef .tc main_arg3) = _
  after_results_simp <;> rfl
theorem W1_arg4 : W1 m ρ c (Proc.devRef .tc main_arg4) = A4 m c := by
  show StableHlo.after hostOps0 (W0 m ρ c) (Proc.devRef .tc main_arg4) = _
  after_results_simp <;> rfl
theorem W1_arg5 : W1 m ρ c (Proc.devRef .tc main_arg5) = A5 m c := by
  show StableHlo.after hostOps0 (W0 m ρ c) (Proc.devRef .tc main_arg5) = _
  after_results_simp <;> rfl
theorem W1_arg6 : W1 m ρ c (Proc.devRef .tc main_arg6) = A6 m c := by
  show StableHlo.after hostOps0 (W0 m ρ c) (Proc.devRef .tc main_arg6) = _
  after_results_simp <;> rfl
theorem W1_arg7 : W1 m ρ c (Proc.devRef .tc main_arg7) = A7 m c := by
  show StableHlo.after hostOps0 (W0 m ρ c) (Proc.devRef .tc main_arg7) = _
  after_results_simp <;> rfl
theorem W1_arg8 : W1 m ρ c (Proc.devRef .tc main_arg8) = A8 m c := by
  show StableHlo.after hostOps0 (W0 m ρ c) (Proc.devRef .tc main_arg8) = _
  after_results_simp <;> rfl
theorem W1_arg9 : W1 m ρ c (Proc.devRef .tc main_arg9) = A9 m c := by
  show StableHlo.after hostOps0 (W0 m ρ c) (Proc.devRef .tc main_arg9) = _
  after_results_simp <;> rfl
theorem W1_arg10 : W1 m ρ c (Proc.devRef .tc main_arg10) = A10 m c := by
  show StableHlo.after hostOps0 (W0 m ρ c) (Proc.devRef .tc main_arg10) = _
  after_results_simp <;> rfl
theorem W1_arg11 : W1 m ρ c (Proc.devRef .tc main_arg11) = A11 m c := by
  show StableHlo.after hostOps0 (W0 m ρ c) (Proc.devRef .tc main_arg11) = _
  after_results_simp <;> rfl
theorem W1_arg12 : W1 m ρ c (Proc.devRef .tc main_arg12) = A12 m c := by
  show StableHlo.after hostOps0 (W0 m ρ c) (Proc.devRef .tc main_arg12) = _
  after_results_simp <;> rfl
theorem W1_arg13 : W1 m ρ c (Proc.devRef .tc main_arg13) = A13 m c := by
  show StableHlo.after hostOps0 (W0 m ρ c) (Proc.devRef .tc main_arg13) = _
  after_results_simp <;> rfl
theorem W1_arg14 : W1 m ρ c (Proc.devRef .tc main_arg14) = A14 m c := by
  show StableHlo.after hostOps0 (W0 m ρ c) (Proc.devRef .tc main_arg14) = _
  after_results_simp <;> rfl

theorem W1_v1 : W1 m ρ c (Proc.devRef .tc main_v1) = Cert.ReferenceIdeal.ReadP.val_main_v1 (F := Ideal) (A1 m c) := by
  show StableHlo.after hostOps0 (W0 m ρ c) (Proc.devRef .tc main_v1) = _
  after_results_simp <;> rfl
theorem W1_v3 : W1 m ρ c (Proc.devRef .tc main_v3) = Cert.ReferenceIdeal.ReadP.val_main_v3 (F := Ideal) (A1 m c) := by
  show StableHlo.after hostOps0 (W0 m ρ c) (Proc.devRef .tc main_v3) = _
  after_results_simp <;> rfl

/-! ## After the first region -/

/-- The first region's output: the reference's first product of the features and the first weight. -/
theorem W2_v4 : W2 m ρ c (Proc.devRef .tc main_v4) = Cert.ReferenceIdeal.ReadP.val_main_v4 (F := Ideal) (A0 m c) (A3 m c) := by
  refine (W2_arr m ρ c 2).trans ((Layer0.output (V1 m ρ) c).trans ?_)
  show Cert.ReferenceIdeal.ReadP.val_main_v4 (F := Ideal) (W1 m ρ c (Proc.devRef .tc main_arg0)) (W1 m ρ c (Proc.devRef .tc main_arg3)) = _
  rw [W1_arg0, W1_arg3]

theorem W2_v1 : W2 m ρ c (Proc.devRef .tc main_v1) = Cert.ReferenceIdeal.ReadP.val_main_v1 (F := Ideal) (A1 m c) :=
  (W2_of_ne m ρ c main_v1 (by decide)).trans (W1_v1 m ρ c)
theorem W2_v3 : W2 m ρ c (Proc.devRef .tc main_v3) = Cert.ReferenceIdeal.ReadP.val_main_v3 (F := Ideal) (A1 m c) :=
  (W2_of_ne m ρ c main_v3 (by decide)).trans (W1_v3 m ρ c)
theorem W2_arg2 : W2 m ρ c (Proc.devRef .tc main_arg2) = A2 m c :=
  (W2_of_ne m ρ c main_arg2 (by decide)).trans (W1_arg2 m ρ c)
theorem W2_arg4 : W2 m ρ c (Proc.devRef .tc main_arg4) = A4 m c :=
  (W2_of_ne m ρ c main_arg4 (by decide)).trans (W1_arg4 m ρ c)
theorem W2_arg5 : W2 m ρ c (Proc.devRef .tc main_arg5) = A5 m c :=
  (W2_of_ne m ρ c main_arg5 (by decide)).trans (W1_arg5 m ρ c)
theorem W2_arg6 : W2 m ρ c (Proc.devRef .tc main_arg6) = A6 m c :=
  (W2_of_ne m ρ c main_arg6 (by decide)).trans (W1_arg6 m ρ c)
theorem W2_arg7 : W2 m ρ c (Proc.devRef .tc main_arg7) = A7 m c :=
  (W2_of_ne m ρ c main_arg7 (by decide)).trans (W1_arg7 m ρ c)
theorem W2_arg8 : W2 m ρ c (Proc.devRef .tc main_arg8) = A8 m c :=
  (W2_of_ne m ρ c main_arg8 (by decide)).trans (W1_arg8 m ρ c)
theorem W2_arg9 : W2 m ρ c (Proc.devRef .tc main_arg9) = A9 m c :=
  (W2_of_ne m ρ c main_arg9 (by decide)).trans (W1_arg9 m ρ c)
theorem W2_arg10 : W2 m ρ c (Proc.devRef .tc main_arg10) = A10 m c :=
  (W2_of_ne m ρ c main_arg10 (by decide)).trans (W1_arg10 m ρ c)
theorem W2_arg11 : W2 m ρ c (Proc.devRef .tc main_arg11) = A11 m c :=
  (W2_of_ne m ρ c main_arg11 (by decide)).trans (W1_arg11 m ρ c)
theorem W2_arg12 : W2 m ρ c (Proc.devRef .tc main_arg12) = A12 m c :=
  (W2_of_ne m ρ c main_arg12 (by decide)).trans (W1_arg12 m ρ c)
theorem W2_arg13 : W2 m ρ c (Proc.devRef .tc main_arg13) = A13 m c :=
  (W2_of_ne m ρ c main_arg13 (by decide)).trans (W1_arg13 m ρ c)
theorem W2_arg14 : W2 m ρ c (Proc.devRef .tc main_arg14) = A14 m c :=
  (W2_of_ne m ρ c main_arg14 (by decide)).trans (W1_arg14 m ρ c)

/-! ## The first aggregation and the second region's entry -/

/-! ### Layer 1: the first stretch — self-loops appended, degrees counted, compared with zero, inverse square roots -/

/-- The sources with the self-loops appended. -/
theorem W3_v6 : W3 m ρ c (Proc.devRef .tc main_v6) = Cert.ReferenceIdeal.ReadP.val_main_v6 (F := Ideal) (A1 m c) := by
  show StableHlo.after hostOps1 (W2 m ρ c) (Proc.devRef .tc main_v6) = _
  after_results_simp
  reads_in_lists
  rw [W2_v1]
  rfl
/-- The targets with the self-loops appended. -/
theorem W3_v7 : W3 m ρ c (Proc.devRef .tc main_v7) = Cert.ReferenceIdeal.ReadP.val_main_v7 (F := Ideal) (A1 m c) := by
  show StableHlo.after hostOps1 (W2 m ρ c) (Proc.devRef .tc main_v7) = _
  after_results_simp
  reads_in_lists
  rw [W2_v3]
  rfl
/-- Which nodes have positive degree (the degrees are a scatter of ones over the targets). -/
theorem W3_v13 : W3 m ρ c (Proc.devRef .tc main_v13) = Cert.ReferenceIdeal.ReadP.val_main_v13 (F := Ideal) (A1 m c) := by
  show StableHlo.after hostOps1 (W2 m ρ c) (Proc.devRef .tc main_v13) = _
  after_results_simp
  reads_in_lists
  rw [W2_v3]
  rfl
/-- The inverse square roots of the degrees. -/
theorem W3_v14 : W3 m ρ c (Proc.devRef .tc main_v14) = Cert.ReferenceIdeal.ReadP.val_main_v14 (F := Ideal) (A1 m c) := by
  show StableHlo.after hostOps1 (W2 m ρ c) (Proc.devRef .tc main_v14) = _
  after_results_simp
  reads_in_lists
  rw [W2_v3]
  rfl
/-- The zero the normalizer takes where the degree is not positive. -/
theorem W3_cst_2 : W3 m ρ c (Proc.devRef .tc main_cst_2) = Cert.ReferenceIdeal.ReadP.val_main_cst_2 (F := Ideal) := by
  show StableHlo.after hostOps1 (W2 m ρ c) (Proc.devRef .tc main_cst_2) = _
  after_results_simp <;> rfl

/-! ### Layer 1: the called selection — the normalizer `where(deg > 0, rsqrt(deg), 0)` -/

/-- The called selection on ANY contents `Vv` of the buffers: its three operations read their operands through
    the called function's typed references, and the conversions between a typed reference's contents and its
    buffer's are the identity — seen here with the operands opaque, so that nothing but the conversions unfolds. -/
theorem selection1 (Vv : Valuation τ sig (Elt Ideal)) :
    StableHlo.after hostOps1_1 Vv (Proc.devRef .tc main_v15)
      = select (Vv (Proc.devRef .tc main_v13) : (⟨S100000, .i1⟩ : BufTy).Contents (Elt Ideal))
          (Vv (Proc.devRef .tc main_v14) : (⟨S100000, .f32⟩ : BufTy).Contents (Elt Ideal))
          (broadcastInDim S100000 ![] bcast_S_S100000 (id (Vv (Proc.devRef .tc main_cst_2) : (⟨S_, .f32⟩ : BufTy).Contents (Elt Ideal)))) := by
  after_results_simp
  rfl

/-- The normalizer `where(deg > 0, rsqrt(deg), 0)`: the selection of the three stages the first stretch left. -/
theorem W4_v15 : W4 m ρ c (Proc.devRef .tc main_v15) = Cert.ReferenceIdeal.ReadP.val_main_v15 (F := Ideal) (A1 m c) := by
  refine (selection1 (W3 m ρ c)).trans ?_
  rw [W3_v13 m ρ c, W3_v14 m ρ c, W3_cst_2 m ρ c]
  rfl
theorem W4_v6 : W4 m ρ c (Proc.devRef .tc main_v6) = Cert.ReferenceIdeal.ReadP.val_main_v6 (F := Ideal) (A1 m c) := by
  refine Eq.trans ?_ (W3_v6 m ρ c)
  show StableHlo.after hostOps1_1 (W3 m ρ c) (Proc.devRef .tc main_v6) = W3 m ρ c (Proc.devRef .tc main_v6)
  generalize W3 m ρ c = Vv
  after_results_simp
theorem W4_v7 : W4 m ρ c (Proc.devRef .tc main_v7) = Cert.ReferenceIdeal.ReadP.val_main_v7 (F := Ideal) (A1 m c) := by
  refine Eq.trans ?_ (W3_v7 m ρ c)
  show StableHlo.after hostOps1_1 (W3 m ρ c) (Proc.devRef .tc main_v7) = W3 m ρ c (Proc.devRef .tc main_v7)
  generalize W3 m ρ c = Vv
  after_results_simp
/-- The region's output is not touched by the first two stretches. -/
theorem W4_v4 : W4 m ρ c (Proc.devRef .tc main_v4) = Cert.ReferenceIdeal.ReadP.val_main_v4 (F := Ideal) (A0 m c) (A3 m c) := by
  refine Eq.trans ?_ (W2_v4 m ρ c)
  show StableHlo.after hostOps1_1 (StableHlo.after hostOps1 (W2 m ρ c)) (Proc.devRef .tc main_v4) = _
  after_results_simp

/-! ### Layer 1: the long stretch — gather both normalizers and the rows, scale, scatter to the targets -/

/-- THE AGGREGATE of layer 1: the region's output gathered at the sources, each row scaled by the product of
    the normalizers at its two ends, and summed into its target — the same operations in both programs, applied
    to the same product, the same index vectors and the same normalizer. -/
theorem W5_v43 : W5 m ρ c (Proc.devRef .tc main_v43) = Cert.ReferenceIdeal.ReadP.val_main_v43 (F := Ideal) (A0 m c) (A1 m c) (A3 m c) := by
  show StableHlo.after hostOps1_2 (W4 m ρ c) (Proc.devRef .tc main_v43) = _
  have h1 := W4_v4 m ρ c
  have h2 := W4_v6 m ρ c
  have h3 := W4_v7 m ρ c
  have h4 := W4_v15 m ρ c
  generalize W4 m ρ c = Vv at h1 h2 h3 h4 ⊢
  after_results_simp
  rw [h1, h2, h3, h4]
  rfl

/-- The first bias, laid out as one row. -/
theorem W5_v44 : W5 m ρ c (Proc.devRef .tc main_v44) = shapeCast S1x128 (A4 m c) shapeCasts_S128_S1x128 := by
  show StableHlo.after hostOps1_2 (StableHlo.after hostOps1_1 (StableHlo.after hostOps1 (W2 m ρ c))) (Proc.devRef .tc main_v44) = _
  after_results_simp
  rw [W2_arg4]
  rfl

theorem W5_v1 : W5 m ρ c (Proc.devRef .tc main_v1) = Cert.ReferenceIdeal.ReadP.val_main_v1 (F := Ideal) (A1 m c) := by
  refine Eq.trans ?_ (W2_v1 m ρ c)
  show StableHlo.after hostOps1_2 (StableHlo.after hostOps1_1 (StableHlo.after hostOps1 (W2 m ρ c))) (Proc.devRef .tc main_v1) = _
  after_results_simp
theorem W5_v3 : W5 m ρ c (Proc.devRef .tc main_v3) = Cert.ReferenceIdeal.ReadP.val_main_v3 (F := Ideal) (A1 m c) := by
  refine Eq.trans ?_ (W2_v3 m ρ c)
  show StableHlo.after hostOps1_2 (StableHlo.after hostOps1_1 (StableHlo.after hostOps1 (W2 m ρ c))) (Proc.devRef .tc main_v3) = _
  after_results_simp
theorem W5_arg2 : W5 m ρ c (Proc.devRef .tc main_arg2) = A2 m c := by
  refine Eq.trans ?_ (W2_arg2 m ρ c)
  show StableHlo.after hostOps1_2 (StableHlo.after hostOps1_1 (StableHlo.after hostOps1 (W2 m ρ c))) (Proc.devRef .tc main_arg2) = _
  after_results_simp
theorem W5_arg5 : W5 m ρ c (Proc.devRef .tc main_arg5) = A5 m c := by
  refine Eq.trans ?_ (W2_arg5 m ρ c)
  show StableHlo.after hostOps1_2 (StableHlo.after hostOps1_1 (StableHlo.after hostOps1 (W2 m ρ c))) (Proc.devRef .tc main_arg5) = _
  after_results_simp
theorem W5_arg6 : W5 m ρ c (Proc.devRef .tc main_arg6) = A6 m c := by
  refine Eq.trans ?_ (W2_arg6 m ρ c)
  show StableHlo.after hostOps1_2 (StableHlo.after hostOps1_1 (StableHlo.after hostOps1 (W2 m ρ c))) (Proc.devRef .tc main_arg6) = _
  after_results_simp
theorem W5_arg7 : W5 m ρ c (Proc.devRef .tc main_arg7) = A7 m c := by
  refine Eq.trans ?_ (W2_arg7 m ρ c)
  show StableHlo.after hostOps1_2 (StableHlo.after hostOps1_1 (StableHlo.after hostOps1 (W2 m ρ c))) (Proc.devRef .tc main_arg7) = _
  after_results_simp
theorem W5_arg8 : W5 m ρ c (Proc.devRef .tc main_arg8) = A8 m c := by
  refine Eq.trans ?_ (W2_arg8 m ρ c)
  show StableHlo.after hostOps1_2 (StableHlo.after hostOps1_1 (StableHlo.after hostOps1 (W2 m ρ c))) (Proc.devRef .tc main_arg8) = _
  after_results_simp
theorem W5_arg9 : W5 m ρ c (Proc.devRef .tc main_arg9) = A9 m c := by
  refine Eq.trans ?_ (W2_arg9 m ρ c)
  show StableHlo.after hostOps1_2 (StableHlo.after hostOps1_1 (StableHlo.after hostOps1 (W2 m ρ c))) (Proc.devRef .tc main_arg9) = _
  after_results_simp
theorem W5_arg10 : W5 m ρ c (Proc.devRef .tc main_arg10) = A10 m c := by
  refine Eq.trans ?_ (W2_arg10 m ρ c)
  show StableHlo.after hostOps1_2 (StableHlo.after hostOps1_1 (StableHlo.after hostOps1 (W2 m ρ c))) (Proc.devRef .tc main_arg10) = _
  after_results_simp
theorem W5_arg11 : W5 m ρ c (Proc.devRef .tc main_arg11) = A11 m c := by
  refine Eq.trans ?_ (W2_arg11 m ρ c)
  show StableHlo.after hostOps1_2 (StableHlo.after hostOps1_1 (StableHlo.after hostOps1 (W2 m ρ c))) (Proc.devRef .tc main_arg11) = _
  after_results_simp
theorem W5_arg12 : W5 m ρ c (Proc.devRef .tc main_arg12) = A12 m c := by
  refine Eq.trans ?_ (W2_arg12 m ρ c)
  show StableHlo.after hostOps1_2 (StableHlo.after hostOps1_1 (StableHlo.after hostOps1 (W2 m ρ c))) (Proc.devRef .tc main_arg12) = _
  after_results_simp
theorem W5_arg13 : W5 m ρ c (Proc.devRef .tc main_arg13) = A13 m c := by
  refine Eq.trans ?_ (W2_arg13 m ρ c)
  show StableHlo.after hostOps1_2 (StableHlo.after hostOps1_1 (StableHlo.after hostOps1 (W2 m ρ c))) (Proc.devRef .tc main_arg13) = _
  after_results_simp
theorem W5_arg14 : W5 m ρ c (Proc.devRef .tc main_arg14) = A14 m c := by
  refine Eq.trans ?_ (W2_arg14 m ρ c)
  show StableHlo.after hostOps1_2 (StableHlo.after hostOps1_1 (StableHlo.after hostOps1 (W2 m ρ c))) (Proc.devRef .tc main_arg14) = _
  after_results_simp

/-! ## After the second region -/

/-- The second region's output: the reference's second product. -/
theorem W6_v45 : W6 m ρ c (Proc.devRef .tc main_v45)
    = Cert.ReferenceIdeal.ReadP.val_main_v48 (F := Ideal) (A0 m c) (A1 m c) (A3 m c) (A4 m c) (A5 m c) :=
  (W6_arr m ρ c 3).trans (Layer1.output (V5 m ρ) (A0 m c) (A1 m c) (A3 m c) (A4 m c) (A5 m c) c
    (W5_v43 m ρ c) (W5_v44 m ρ c) (W5_arg5 m ρ c))

theorem W6_v1 : W6 m ρ c (Proc.devRef .tc main_v1) = Cert.ReferenceIdeal.ReadP.val_main_v1 (F := Ideal) (A1 m c) :=
  (W6_of_ne m ρ c main_v1 (by decide)).trans (W5_v1 m ρ c)
theorem W6_v3 : W6 m ρ c (Proc.devRef .tc main_v3) = Cert.ReferenceIdeal.ReadP.val_main_v3 (F := Ideal) (A1 m c) :=
  (W6_of_ne m ρ c main_v3 (by decide)).trans (W5_v3 m ρ c)
theorem W6_arg2 : W6 m ρ c (Proc.devRef .tc main_arg2) = A2 m c :=
  (W6_of_ne m ρ c main_arg2 (by decide)).trans (W5_arg2 m ρ c)
theorem W6_arg6 : W6 m ρ c (Proc.devRef .tc main_arg6) = A6 m c :=
  (W6_of_ne m ρ c main_arg6 (by decide)).trans (W5_arg6 m ρ c)
theorem W6_arg7 : W6 m ρ c (Proc.devRef .tc main_arg7) = A7 m c :=
  (W6_of_ne m ρ c main_arg7 (by decide)).trans (W5_arg7 m ρ c)
theorem W6_arg8 : W6 m ρ c (Proc.devRef .tc main_arg8) = A8 m c :=
  (W6_of_ne m ρ c main_arg8 (by decide)).trans (W5_arg8 m ρ c)
theorem W6_arg9 : W6 m ρ c (Proc.devRef .tc main_arg9) = A9 m c :=
  (W6_of_ne m ρ c main_arg9 (by decide)).trans (W5_arg9 m ρ c)
theorem W6_arg10 : W6 m ρ c (Proc.devRef .tc main_arg10) = A10 m c :=
  (W6_of_ne m ρ c main_arg10 (by decide)).trans (W5_arg10 m ρ c)
theorem W6_arg11 : W6 m ρ c (Proc.devRef .tc main_arg11) = A11 m c :=
  (W6_of_ne m ρ c main_arg11 (by decide)).trans (W5_arg11 m ρ c)
theorem W6_arg12 : W6 m ρ c (Proc.devRef .tc main_arg12) = A12 m c :=
  (W6_of_ne m ρ c main_arg12 (by decide)).trans (W5_arg12 m ρ c)
theorem W6_arg13 : W6 m ρ c (Proc.devRef .tc main_arg13) = A13 m c :=
  (W6_of_ne m ρ c main_arg13 (by decide)).trans (W5_arg13 m ρ c)
theorem W6_arg14 : W6 m ρ c (Proc.devRef .tc main_arg14) = A14 m c :=
  (W6_of_ne m ρ c main_arg14 (by decide)).trans (W5_arg14 m ρ c)

end Cert.KernelIdeal.Fold

end
-- ==== Proof.Layer2.lean ====
/-
  The third region: relu of (second aggregate + second bias), times the third weight matrix.

  Grid point `t` of 50 stages rows 2000·t … 2000·t + 1999 of the aggregated features, the bias as one row of 128
  and the whole 128×128 weight; the body adds the bias to every row, takes the maximum with zero, multiplies by
  the weight into a zero accumulator and writes the 2000×128 product back to the same rows of the output array.
  The blocks tile the 100000 rows. So if the aggregated array the region finds is the reference's aggregate and
  the bias row is the bias vector laid out as one row, the output array is the reference's next whole-array
  product: entry (row, column) is the sum over `k` of max(aggregate (row, k) + bias k, 0) times weight (k, column).
-/
import proofs.«129497_j21380347199506_1_alg».proof.Proof.Gen.KernelIdeal.Frame
import proofs.«129497_j21380347199506_1_alg».proof.Proof.RefReadP
import proofs.«129497_j21380347199506_1_alg».proof.Proof.MatmulAt
import proofs.«129497_j21380347199506_1_alg».proof.Proof.LibViewRead
import Idealize.ShloMosaic.Lib.Pipeline.Value
import Idealize.ShloMosaic.Lib.ValueLayout

set_option maxRecDepth 16384

noncomputable section

namespace Cert.KernelIdeal.Layer2

open Cert.KernelIdeal Cert.KernelIdeal.Gen Cert.KernelIdeal.MatmulAt
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The left factor of the body's product at (row `p`, position `k`): the loaded entry plus the bias row's entry
    `k`, cut off below at zero. (The casts to the same shape are the identity; the bias row is broadcast down the
    rows.) -/
theorem left_factor (x0 : Vec Ideal S2000x128 .f32) (x1 : Vec Ideal S1x128 .f32) (p : Fin 2000) (k : Fin 128) :
    (maximumf (addf (shapeCast S2000x128 x0 shapeCasts_S2000x128_S2000x128)
        (broadcastTo S2000x128 (shapeCast S1x128 x1 shapeCasts_S1x128_S1x128) broadcasts_S1x128_S2000x128))
      (broadcast S2000x128 (Scalar.ofBits (F := Ideal) .f32 0x00000000#32))) (ix2 p k)
    = FloatOps.maximumf (F := Ideal) (φ := .f32) (FloatOps.addf (F := Ideal) (φ := .f32) (x0 (ix2 p k)) (x1 (ix2 (0 : Fin 1) k))) (FloatOps.ofBits (F := Ideal) .f32 0x00000000#32) := by
  show FloatOps.maximumf (F := Ideal) (φ := .f32) (FloatOps.addf (F := Ideal) (φ := .f32) (shapeCast S2000x128 x0 shapeCasts_S2000x128_S2000x128 (ix2 p k))
      (broadcastTo S2000x128 (shapeCast S1x128 x1 shapeCasts_S1x128_S1x128) broadcasts_S1x128_S2000x128 (ix2 p k))) _ = _
  rw [shapeCast_self, shapeCast_self, ValueIdx.broadcastTo_1b_ab_apply]
  rfl

/-- The body's product at an index of the block. -/
theorem product_apply (x0 : Vec Ideal S2000x128 .f32) (x1 : Vec Ideal S1x128 .f32) (x2 : Vec Ideal S128x128 .f32) (j : S2000x128.Idx) :
    k2_pay1 (F := Ideal) x0 x1 x2 j
      = ∑ k : Fin 128, FloatOps.maximumf (F := Ideal) (φ := .f32) (FloatOps.addf (F := Ideal) (φ := .f32) (x0 (lrow_128x128 j k)) (x1 (ix2 (0 : Fin 1) k))) (FloatOps.ofBits (F := Ideal) .f32 0x00000000#32)
          * x2 (rcol_128x128 j k) := by
  unfold k2_pay1
  refine (matmul_128x128_apply (φ₁ := .bf16) (φ₂ := .bf16) _ _ j).trans (Finset.sum_congr rfl fun k _ => ?_)
  exact congrArg (· * x2 (rcol_128x128 j k)) (left_factor x0 x1 ⟨(j 0).val, (j 0).isLt⟩ k)

/-- The printed index maps over the grid: the row windows sit at block (t, 0), the bias and the weight at (0, 0). -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The reference's left factor at an index: its relu of (aggregate plus broadcast bias), read entry by entry. -/
theorem reference_left (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (l : Cert.ReferenceIdeal.S100000x128.Idx) :
    Cert.ReferenceIdeal.ReadP.val_main_v91 (F := Ideal) x0 x1 x3 x4 x5 x6 l
      = FloatOps.maximumf (F := Ideal) (φ := .f32) (FloatOps.addf (F := Ideal) (φ := .f32) (Cert.ReferenceIdeal.ReadP.val_main_v87 (F := Ideal) x0 x1 x3 x4 x5 l)
          (x6 (Cert.ReferenceIdeal.ReadP.idx_main_v88 (Cert.ReferenceIdeal.ReadP.idx_main_v89 l)))) (FloatOps.ofBits (F := Ideal) .f32 0x00000000#32) := by
  rw [Cert.ReferenceIdeal.ReadP.val_main_v91_apply, Cert.ReferenceIdeal.ReadP.val_main_v90_apply, Cert.ReferenceIdeal.ReadP.val_main_v89_apply, Cert.ReferenceIdeal.ReadP.val_main_v88_apply,
    Cert.ReferenceIdeal.ReadP.val_main_call3_v0_apply, Cert.ReferenceIdeal.ReadP.val_main_call3_cst_apply]

/-- What point `t` writes back is block `t` of the reference's next product. -/
theorem written_back (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (c : Dev nD)
    (hA : V c main_v84 = Cert.ReferenceIdeal.ReadP.val_main_v87 (F := Ideal) x0 x1 x3 x4 x5)
    (hb : V c main_v85 = shapeCast S1x128 x6 shapeCasts_S128_S1x128)
    (hW : V c main_arg7 = x7) (t : Fin cfg2.N) :
    (dat2 V c).flushed 3 t = ((cfg2.win 3).blk t).view.read (Elt Ideal)
      (Cert.ReferenceIdeal.ReadP.val_main_v92 (F := Ideal) x0 x1 x3 x4 x5 x6 x7) := by
  generalize hG : Cert.ReferenceIdeal.ReadP.val_main_v92 (F := Ideal) x0 x1 x3 x4 x5 x6 x7 = G
  show (cfg2.win 3).cut (grid2.coords t) ((dat2 V c).after 3 t) = _
  rw [after2_3]
  unfold out2_3
  rw [View.canon_unit_zero zero_offsets]
  simp only [View.ld_unit_zero (S := S2000x128) zero_offsets, View.ld_unit_zero (S := S1x128) zero_offsets, View.ld_unit_zero (S := S128x128) zero_offsets]
  obtain ⟨e0, e1, e2, e3, e4, e5, e6, e7⟩ := block_positions t
  generalize hP : k2_pay1 (iblk2 V c 0 t) (iblk2 V c 1 t) (iblk2 V c 2 t) = P
  suffices key : ∀ j : S2000x128.Idx, P j = G (((cfg2.win 3).blk t).view.emb j) from
    (View.read_eq_of_forall_heq ((cfg2.win 3).blk t).view G ((cfg2.win 3).cut (grid2.coords t) P)
      (fun j => heq_of_eq (key j).symm)).symm
  intro j
  subst hP hG
  rw [Cert.ReferenceIdeal.ReadP.val_main_v92_apply]
  refine (product_apply (iblk2 V c 0 t) (iblk2 V c 1 t) (iblk2 V c 2 t) j).trans (Finset.sum_congr rfl fun k _ => ?_)
  rw [reference_left]
  have hl : iblk2 V c 0 t (lrow_128x128 j k) = V c main_v84 (Cert.ReferenceIdeal.ReadP.lidx_main_v92 (((cfg2.win 3).blk t).view.emb j) k) := by
    refine View.read_apply_eq_of_heq _ _ _ _ (heq_of_eq ?_)
    show V c main_v84 (((cfg2.win 0).blk t).view.emb (lrow_128x128 j k)) = _
    refine congrArg _ (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * k.val = k.val; omega
  have hbias : iblk2 V c 1 t (ix2 (0 : Fin 1) k) = x6 (Cert.ReferenceIdeal.ReadP.idx_main_v88 (Cert.ReferenceIdeal.ReadP.idx_main_v89 (Cert.ReferenceIdeal.ReadP.lidx_main_v92 (((cfg2.win 3).blk t).view.emb j) k))) := by
    refine View.read_apply_eq_of_heq _ _ _ _ (heq_of_eq ?_)
    show V c main_v85 (((cfg2.win 1).blk t).view.emb (ix2 (0 : Fin 1) k)) = _
    rw [hb]
    have hix : ((cfg2.win 1).blk t).view.emb (ix2 (0 : Fin 1) k) = ix2 (0 : Fin 1) k := by
      funext a; apply Fin.ext
      match a with
      | ⟨0, _⟩ => show win2_1.index t (0 : Fin 2) * 1 + 1 * 0 = 0; omega
      | ⟨1, _⟩ => show win2_1.index t (1 : Fin 2) * 128 + 1 * k.val = k.val; omega
    rw [hix, ValueIdx.shapeCast_a_1a_apply]
    exact congrArg _ (funext fun a => by match a with | ⟨0, _⟩ => rfl)
  have hr : iblk2 V c 2 t (rcol_128x128 j k) = V c main_arg7 (Cert.ReferenceIdeal.ReadP.ridx_main_v92 (((cfg2.win 3).blk t).view.emb j) k) := by
    refine View.read_apply_eq_of_heq _ _ _ _ (heq_of_eq ?_)
    show V c main_arg7 (((cfg2.win 2).blk t).view.emb (rcol_128x128 j k)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega
  rw [hl, hbias, hr, hA, hW]

/-- An index of the output array is in point `t`'s block iff each coordinate is in the block's range. -/
theorem mem_block (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v86).slice (win2_3.rect t)).set ↔ _
  rw [View.set_slice_whole, Rect.mem_set_unit]
  exact Iff.rfl

/-- Every row is in some point's block: row `r` is in block `r / 2000`. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  have hlt : (i 0).val / 2000 < cfg2.N := by rw [hN]; omega
  obtain ⟨e0, e1, e2, e3, e4, e5, e6, e7⟩ := block_positions ⟨(i 0).val / 2000, hlt⟩
  refine ⟨⟨(i 0).val / 2000, hlt⟩, flush2_3 _, ?_⟩
  rw [mem_block]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, hlt⟩ (1 : Fin 2) * 128 ≤ (i 1).val ∧ (i 1).val < win2_3.index ⟨(i 0).val / 2000, hlt⟩ (1 : Fin 2) * 128 + 128
    rw [e7]; omega

/-- THE OUTPUT ARRAY after the region: the reference's next whole-array product. -/
theorem output (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (c : Dev nD)
    (hA : V c main_v84 = Cert.ReferenceIdeal.ReadP.val_main_v87 (F := Ideal) x0 x1 x3 x4 x5)
    (hb : V c main_v85 = shapeCast S1x128 x6 shapeCasts_S128_S1x128)
    (hW : V c main_arg7 = x7) :
    (dat2 V c).arrAt 3 cfg2.N = Cert.ReferenceIdeal.ReadP.val_main_v92 (F := Ideal) x0 x1 x3 x4 x5 x6 x7 :=
  (dat2 V c).arrAt_eq_of_cover 3 _ (fun t _ => written_back V x0 x1 x3 x4 x5 x6 x7 c hA hb hW t) covered

end Cert.KernelIdeal.Layer2

end
-- ==== Proof.FoldB.lean ====
/-
  The fold of buffer contents through @main, second part: the second aggregation and the third region.

  The same steps one layer on: the two sliced rows of the edge list and the arguments are carried across the three
  stretches and the region; the second aggregate is the reference's operations %49 … %87 applied to the second
  product; the second bias is laid out as one row; the third region's output is the reference's third product.
-/
import proofs.«129497_j21380347199506_1_alg».proof.Proof.Gen.KernelIdeal.Frame
import proofs.«129497_j21380347199506_1_alg».proof.Proof.RefReadP
import proofs.«129497_j21380347199506_1_alg».proof.Proof.FoldA
import proofs.«129497_j21380347199506_1_alg».proof.Proof.Layer2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The second aggregation and the third region's entry -/

/-! ### Layer 2: the first stretch — self-loops appended, degrees counted, compared with zero, inverse square roots -/

/-- The sources with the self-loops appended. -/
theorem W7_v47 : W7 m ρ c (Proc.devRef .tc main_v47) = Cert.ReferenceIdeal.ReadP.val_main_v50 (F := Ideal) (A1 m c) := by
  show StableHlo.after hostOps2 (W6 m ρ c) (Proc.devRef .tc main_v47) = _
  after_results_simp
  reads_in_lists
  rw [W6_v1]
  rfl
/-- The targets with the self-loops appended. -/
theorem W7_v48 : W7 m ρ c (Proc.devRef .tc main_v48) = Cert.ReferenceIdeal.ReadP.val_main_v51 (F := Ideal) (A1 m c) := by
  show StableHlo.after hostOps2 (W6 m ρ c) (Proc.devRef .tc main_v48) = _
  after_results_simp
  reads_in_lists
  rw [W6_v3]
  rfl
/-- Which nodes have positive degree (the degrees are a scatter of ones over the targets). -/
theorem W7_v54 : W7 m ρ c (Proc.devRef .tc main_v54) = Cert.ReferenceIdeal.ReadP.val_main_v57 (F := Ideal) (A1 m c) := by
  show StableHlo.after hostOps2 (W6 m ρ c) (Proc.devRef .tc main_v54) = _
  after_results_simp
  reads_in_lists
  rw [W6_v3]
  rfl
/-- The inverse square roots of the degrees. -/
theorem W7_v55 : W7 m ρ c (Proc.devRef .tc main_v55) = Cert.ReferenceIdeal.ReadP.val_main_v58 (F := Ideal) (A1 m c) := by
  show StableHlo.after hostOps2 (W6 m ρ c) (Proc.devRef .tc main_v55) = _
  after_results_simp
  reads_in_lists
  rw [W6_v3]
  rfl
/-- The zero the normalizer takes where the degree is not positive. -/
theorem W7_cst_12 : W7 m ρ c (Proc.devRef .tc main_cst_12) = Cert.ReferenceIdeal.ReadP.val_main_cst_12 (F := Ideal) := by
  show StableHlo.after hostOps2 (W6 m ρ c) (Proc.devRef .tc main_cst_12) = _
  after_results_simp <;> rfl

/-! ### Layer 2: the called selection — the normalizer `where(deg > 0, rsqrt(deg), 0)` -/

/-- The called selection on ANY contents `Vv` of the buffers: its three operations read their operands through
    the called function's typed references, and the conversions between a typed reference's contents and its
    buffer's are the identity — seen here with the operands opaque, so that nothing but the conversions unfolds. -/
theorem selection2 (Vv : Valuation τ sig (Elt Ideal)) :
    StableHlo.after hostOps2_1 Vv (Proc.devRef .tc main_v56)
      = select (Vv (Proc.devRef .tc main_v54) : (⟨S100000, .i1⟩ : BufTy).Contents (Elt Ideal))
          (Vv (Proc.devRef .tc main_v55) : (⟨S100000, .f32⟩ : BufTy).Contents (Elt Ideal))
          (broadcastInDim S100000 ![] bcast_S_S100000 (id (Vv (Proc.devRef .tc main_cst_12) : (⟨S_, .f32⟩ : BufTy).Contents (Elt Ideal)))) := by
  after_results_simp
  rfl

/-- The normalizer `where(deg > 0, rsqrt(deg), 0)`: the selection of the three stages the first stretch left. -/
theorem W8_v56 : W8 m ρ c (Proc.devRef .tc main_v56) = Cert.ReferenceIdeal.ReadP.val_main_v59 (F := Ideal) (A1 m c) := by
  refine (selection2 (W7 m ρ c)).trans ?_
  rw [W7_v54 m ρ c, W7_v55 m ρ c, W7_cst_12 m ρ c]
  rfl
theorem W8_v47 : W8 m ρ c (Proc.devRef .tc main_v47) = Cert.ReferenceIdeal.ReadP.val_main_v50 (F := Ideal) (A1 m c) := by
  refine Eq.trans ?_ (W7_v47 m ρ c)
  show StableHlo.after hostOps2_1 (W7 m ρ c) (Proc.devRef .tc main_v47) = W7 m ρ c (Proc.devRef .tc main_v47)
  generalize W7 m ρ c = Vv
  after_results_simp
theorem W8_v48 : W8 m ρ c (Proc.devRef .tc main_v48) = Cert.ReferenceIdeal.ReadP.val_main_v51 (F := Ideal) (A1 m c) := by
  refine Eq.trans ?_ (W7_v48 m ρ c)
  show StableHlo.after hostOps2_1 (W7 m ρ c) (Proc.devRef .tc main_v48) = W7 m ρ c (Proc.devRef .tc main_v48)
  generalize W7 m ρ c = Vv
  after_results_simp
/-- The region's output is not touched by the first two stretches. -/
theorem W8_v45 : W8 m ρ c (Proc.devRef .tc main_v45) = Cert.ReferenceIdeal.ReadP.val_main_v48 (F := Ideal) (A0 m c) (A1 m c) (A3 m c) (A4 m c) (A5 m c) := by
  refine Eq.trans ?_ (W6_v45 m ρ c)
  show StableHlo.after hostOps2_1 (StableHlo.after hostOps2 (W6 m ρ c)) (Proc.devRef .tc main_v45) = _
  after_results_simp

/-! ### Layer 2: the long stretch — gather both normalizers and the rows, scale, scatter to the targets -/

/-- THE AGGREGATE of layer 2: the region's output gathered at the sources, each row scaled by the product of
    the normalizers at its two ends, and summed into its target — the same operations in both programs, applied
    to the same product, the same index vectors and the same normalizer. -/
theorem W9_v84 : W9 m ρ c (Proc.devRef .tc main_v84) = Cert.ReferenceIdeal.ReadP.val_main_v87 (F := Ideal) (A0 m c) (A1 m c) (A3 m c) (A4 m c) (A5 m c) := by
  show StableHlo.after hostOps2_2 (W8 m ρ c) (Proc.devRef .tc main_v84) = _
  have h1 := W8_v45 m ρ c
  have h2 := W8_v47 m ρ c
  have h3 := W8_v48 m ρ c
  have h4 := W8_v56 m ρ c
  generalize W8 m ρ c = Vv at h1 h2 h3 h4 ⊢
  after_results_simp
  rw [h1, h2, h3, h4]
  rfl

/-- The second bias, laid out as one row. -/
theorem W9_v85 : W9 m ρ c (Proc.devRef .tc main_v85) = shapeCast S1x128 (A6 m c) shapeCasts_S128_S1x128 := by
  show StableHlo.after hostOps2_2 (StableHlo.after hostOps2_1 (StableHlo.after hostOps2 (W6 m ρ c))) (Proc.devRef .tc main_v85) = _
  after_results_simp
  rw [W6_arg6]
  rfl

theorem W9_v1 : W9 m ρ c (Proc.devRef .tc main_v1) = Cert.ReferenceIdeal.ReadP.val_main_v1 (F := Ideal) (A1 m c) := by
  refine Eq.trans ?_ (W6_v1 m ρ c)
  show StableHlo.after hostOps2_2 (StableHlo.after hostOps2_1 (StableHlo.after hostOps2 (W6 m ρ c))) (Proc.devRef .tc main_v1) = _
  after_results_simp
theorem W9_v3 : W9 m ρ c (Proc.devRef .tc main_v3) = Cert.ReferenceIdeal.ReadP.val_main_v3 (F := Ideal) (A1 m c) := by
  refine Eq.trans ?_ (W6_v3 m ρ c)
  show StableHlo.after hostOps2_2 (StableHlo.after hostOps2_1 (StableHlo.after hostOps2 (W6 m ρ c))) (Proc.devRef .tc main_v3) = _
  after_results_simp
theorem W9_arg2 : W9 m ρ c (Proc.devRef .tc main_arg2) = A2 m c := by
  refine Eq.trans ?_ (W6_arg2 m ρ c)
  show StableHlo.after hostOps2_2 (StableHlo.after hostOps2_1 (StableHlo.after hostOps2 (W6 m ρ c))) (Proc.devRef .tc main_arg2) = _
  after_results_simp
theorem W9_arg7 : W9 m ρ c (Proc.devRef .tc main_arg7) = A7 m c := by
  refine Eq.trans ?_ (W6_arg7 m ρ c)
  show StableHlo.after hostOps2_2 (StableHlo.after hostOps2_1 (StableHlo.after hostOps2 (W6 m ρ c))) (Proc.devRef .tc main_arg7) = _
  after_results_simp
theorem W9_arg8 : W9 m ρ c (Proc.devRef .tc main_arg8) = A8 m c := by
  refine Eq.trans ?_ (W6_arg8 m ρ c)
  show StableHlo.after hostOps2_2 (StableHlo.after hostOps2_1 (StableHlo.after hostOps2 (W6 m ρ c))) (Proc.devRef .tc main_arg8) = _
  after_results_simp
theorem W9_arg9 : W9 m ρ c (Proc.devRef .tc main_arg9) = A9 m c := by
  refine Eq.trans ?_ (W6_arg9 m ρ c)
  show StableHlo.after hostOps2_2 (StableHlo.after hostOps2_1 (StableHlo.after hostOps2 (W6 m ρ c))) (Proc.devRef .tc main_arg9) = _
  after_results_simp
theorem W9_arg10 : W9 m ρ c (Proc.devRef .tc main_arg10) = A10 m c := by
  refine Eq.trans ?_ (W6_arg10 m ρ c)
  show StableHlo.after hostOps2_2 (StableHlo.after hostOps2_1 (StableHlo.after hostOps2 (W6 m ρ c))) (Proc.devRef .tc main_arg10) = _
  after_results_simp
theorem W9_arg11 : W9 m ρ c (Proc.devRef .tc main_arg11) = A11 m c := by
  refine Eq.trans ?_ (W6_arg11 m ρ c)
  show StableHlo.after hostOps2_2 (StableHlo.after hostOps2_1 (StableHlo.after hostOps2 (W6 m ρ c))) (Proc.devRef .tc main_arg11) = _
  after_results_simp
theorem W9_arg12 : W9 m ρ c (Proc.devRef .tc main_arg12) = A12 m c := by
  refine Eq.trans ?_ (W6_arg12 m ρ c)
  show StableHlo.after hostOps2_2 (StableHlo.after hostOps2_1 (StableHlo.after hostOps2 (W6 m ρ c))) (Proc.devRef .tc main_arg12) = _
  after_results_simp
theorem W9_arg13 : W9 m ρ c (Proc.devRef .tc main_arg13) = A13 m c := by
  refine Eq.trans ?_ (W6_arg13 m ρ c)
  show StableHlo.after hostOps2_2 (StableHlo.after hostOps2_1 (StableHlo.after hostOps2 (W6 m ρ c))) (Proc.devRef .tc main_arg13) = _
  after_results_simp
theorem W9_arg14 : W9 m ρ c (Proc.devRef .tc main_arg14) = A14 m c := by
  refine Eq.trans ?_ (W6_arg14 m ρ c)
  show StableHlo.after hostOps2_2 (StableHlo.after hostOps2_1 (StableHlo.after hostOps2 (W6 m ρ c))) (Proc.devRef .tc main_arg14) = _
  after_results_simp

/-! ## After the third region -/

/-- The third region's output: the reference's third product. -/
theorem W10_v86 : W10 m ρ c (Proc.devRef .tc main_v86)
    = Cert.ReferenceIdeal.ReadP.val_main_v92 (F := Ideal) (A0 m c) (A1 m c) (A3 m c) (A4 m c) (A5 m c) (A6 m c) (A7 m c) :=
  (W10_arr m ρ c 3).trans (Layer2.output (V9 m ρ) (A0 m c) (A1 m c) (A3 m c) (A4 m c) (A5 m c) (A6 m c) (A7 m c) c
    (W9_v84 m ρ c) (W9_v85 m ρ c) (W9_arg7 m ρ c))

theorem W10_v1 : W10 m ρ c (Proc.devRef .tc main_v1) = Cert.ReferenceIdeal.ReadP.val_main_v1 (F := Ideal) (A1 m c) :=
  (W10_of_ne m ρ c main_v1 (by decide)).trans (W9_v1 m ρ c)
theorem W10_v3 : W10 m ρ c (Proc.devRef .tc main_v3) = Cert.ReferenceIdeal.ReadP.val_main_v3 (F := Ideal) (A1 m c) :=
  (W10_of_ne m ρ c main_v3 (by decide)).trans (W9_v3 m ρ c)
theorem W10_arg2 : W10 m ρ c (Proc.devRef .tc main_arg2) = A2 m c :=
  (W10_of_ne m ρ c main_arg2 (by decide)).trans (W9_arg2 m ρ c)
theorem W10_arg8 : W10 m ρ c (Proc.devRef .tc main_arg8) = A8 m c :=
  (W10_of_ne m ρ c main_arg8 (by decide)).trans (W9_arg8 m ρ c)
theorem W10_arg9 : W10 m ρ c (Proc.devRef .tc main_arg9) = A9 m c :=
  (W10_of_ne m ρ c main_arg9 (by decide)).trans (W9_arg9 m ρ c)
theorem W10_arg10 : W10 m ρ c (Proc.devRef .tc main_arg10) = A10 m c :=
  (W10_of_ne m ρ c main_arg10 (by decide)).trans (W9_arg10 m ρ c)
theorem W10_arg11 : W10 m ρ c (Proc.devRef .tc main_arg11) = A11 m c :=
  (W10_of_ne m ρ c main_arg11 (by decide)).trans (W9_arg11 m ρ c)
theorem W10_arg12 : W10 m ρ c (Proc.devRef .tc main_arg12) = A12 m c :=
  (W10_of_ne m ρ c main_arg12 (by decide)).trans (W9_arg12 m ρ c)
theorem W10_arg13 : W10 m ρ c (Proc.devRef .tc main_arg13) = A13 m c :=
  (W10_of_ne m ρ c main_arg13 (by decide)).trans (W9_arg13 m ρ c)
theorem W10_arg14 : W10 m ρ c (Proc.devRef .tc main_arg14) = A14 m c :=
  (W10_of_ne m ρ c main_arg14 (by decide)).trans (W9_arg14 m ρ c)

end Cert.KernelIdeal.Fold

end
-- ==== Proof.HeadRows.lean ====
/-
  The dense head's arithmetic, one block of rows at a time.

  The last region's body, on a block of 2000 rows, computes
      h   = agg + b3                      (2000×128; the bias row broadcast down the rows)
      x1  = max(h · Wl1 + bl1, 0)         (2000×125)
      h2  = max(x1 · Wl2 + bl2 + h, 0)    (2000×128; the residual `h` added after the bias)
      out = max(h2 · Wl3 + bl3, 0)        (2000×2)
  with every product accumulated into zeros and every change of float format the identity at the ideal values.
  The reference computes the same four stages on all 100000 rows at once. Row by row the two agree: if the
  block's rows of `agg` are rows `base … base + 1999` of the reference's aggregate, and the block's bias rows and
  weights are the reference's, then each stage of the block at row `p` is the reference's stage at row
  `base + p`. Nothing here needs finiteness: both sides are the same sums of the same products in the same order.
-/
import proofs.«129497_j21380347199506_1_alg».proof.Proof.Gen.KernelIdeal.Skeleton
import proofs.«129497_j21380347199506_1_alg».proof.Proof.RefReadP
import proofs.«129497_j21380347199506_1_alg».proof.Proof.MatmulAt
import Idealize.ShloMosaic.Lib.Pipeline.Value
import Idealize.ShloMosaic.Lib.ValueLayout

set_option maxRecDepth 16384

noncomputable section

namespace Cert.KernelIdeal.HeadRows

open Cert.KernelIdeal Cert.KernelIdeal.Gen Cert.KernelIdeal.MatmulAt
open Idealize.ShloMosaic Idealize.ShloMosaic.ValueIdx

/-! ## The block's four stages, as the body spells them -/

section Block
variable (x0 : Vec Ideal S2000x128 .f32) (x1 : Vec Ideal S1x128 .f32) (x2 : Vec Ideal S128x125 .f32) (x3 : Vec Ideal S1x125 .f32) (x4 : Vec Ideal S125x128 .f32) (x5 : Vec Ideal S1x128 .f32) (x6 : Vec Ideal S128x2 .f32) (x7 : Vec Ideal S1x2 .f32)

/-- `h`: the loaded rows plus the bias row. -/
def hidden : FVec Ideal S2000x128 .f32 :=
  addf (shapeCast S2000x128 x0 shapeCasts_S2000x128_S2000x128)
    (broadcastTo S2000x128 (shapeCast S1x128 x1 shapeCasts_S1x128_S1x128) broadcasts_S1x128_S2000x128)
/-- `x1`. -/
def middle : FVec Ideal S2000x125 .f32 :=
  maximumf (addf (matmul dot_S2000x128_S128x125_S2000x125_1_0_0_1_n_n none (truncf .bf16 (hidden x0 x1) bitsLt_bf16_f32) (truncf .bf16 x2 bitsLt_bf16_f32) (constant (F := Ideal) S2000x125 .f32 0x00000000#32))
      (broadcastTo S2000x125 (shapeCast S1x125 x3 shapeCasts_S1x125_S1x125) broadcasts_S1x125_S2000x125))
    (broadcast S2000x125 (Scalar.ofBits (F := Ideal) .f32 0x00000000#32))
/-- `h2`. -/
def residual : FVec Ideal S2000x128 .f32 :=
  maximumf (addf (addf (matmul dot_S2000x125_S125x128_S2000x128_1_0_0_1_n_n none (truncf .bf16 (middle x0 x1 x2 x3) bitsLt_bf16_f32) (truncf .bf16 x4 bitsLt_bf16_f32) (constant (F := Ideal) S2000x128 .f32 0x00000000#32))
        (broadcastTo S2000x128 (shapeCast S1x128 x5 shapeCasts_S1x128_S1x128) broadcasts_S1x128_S2000x128))
      (hidden x0 x1))
    (broadcast S2000x128 (Scalar.ofBits (F := Ideal) .f32 0x00000000#32))
/-- `out`. -/
def scores : FVec Ideal S2000x2 .f32 :=
  maximumf (addf (matmul dot_S2000x128_S128x2_S2000x2_1_0_0_1_n_n none (truncf .bf16 (residual x0 x1 x2 x3 x4 x5) bitsLt_bf16_f32) (truncf .bf16 x6 bitsLt_bf16_f32) (constant (F := Ideal) S2000x2 .f32 0x00000000#32))
      (broadcastTo S2000x2 (shapeCast S1x2 x7 shapeCasts_S1x2_S1x2) broadcasts_S1x2_S2000x2))
    (broadcast S2000x2 (Scalar.ofBits (F := Ideal) .f32 0x00000000#32))

/-- The body's stored value is the last stage. -/
theorem payload_eq : k3_pay1 (F := Ideal) x0 x1 x2 x3 x4 x5 x6 x7 = scores x0 x1 x2 x3 x4 x5 x6 x7 := rfl

theorem hidden_apply (p : Fin 2000) (k : Fin 128) :
    hidden x0 x1 (ix2 p k) = FloatOps.addf (F := Ideal) (φ := .f32) (x0 (ix2 p k)) (x1 (ix2 (0 : Fin 1) k)) := by
  show FloatOps.addf (F := Ideal) (φ := .f32) (shapeCast S2000x128 x0 shapeCasts_S2000x128_S2000x128 (ix2 p k))
      (broadcastTo S2000x128 (shapeCast S1x128 x1 shapeCasts_S1x128_S1x128) broadcasts_S1x128_S2000x128 (ix2 p k)) = _
  rw [shapeCast_self, shapeCast_self, ValueIdx.broadcastTo_1b_ab_apply]

theorem middle_apply (p : Fin 2000) (k : Fin 125) :
    middle x0 x1 x2 x3 (ix2 p k)
      = FloatOps.maximumf (F := Ideal) (φ := .f32) (FloatOps.addf (F := Ideal) (φ := .f32) (∑ q : Fin 128, hidden x0 x1 (ix2 p q) * x2 (ix2 q k)) (x3 (ix2 (0 : Fin 1) k))) (FloatOps.ofBits (F := Ideal) .f32 0x00000000#32) := by
  show FloatOps.maximumf (F := Ideal) (φ := .f32) (FloatOps.addf (F := Ideal) (φ := .f32) (matmul dot_S2000x128_S128x125_S2000x125_1_0_0_1_n_n none (truncf .bf16 (hidden x0 x1) bitsLt_bf16_f32) (truncf .bf16 x2 bitsLt_bf16_f32) (constant (F := Ideal) S2000x125 .f32 0x00000000#32) (ix2 p k))
      (broadcastTo S2000x125 (shapeCast S1x125 x3 shapeCasts_S1x125_S1x125) broadcasts_S1x125_S2000x125 (ix2 p k))) _ = _
  rw [matmul_128x125_apply, shapeCast_self, ValueIdx.broadcastTo_1b_ab_apply]
  rfl

theorem residual_apply (p : Fin 2000) (k : Fin 128) :
    residual x0 x1 x2 x3 x4 x5 (ix2 p k)
      = FloatOps.maximumf (F := Ideal) (φ := .f32) (FloatOps.addf (F := Ideal) (φ := .f32) (FloatOps.addf (F := Ideal) (φ := .f32) (∑ q : Fin 125, middle x0 x1 x2 x3 (ix2 p q) * x4 (ix2 q k)) (x5 (ix2 (0 : Fin 1) k)))
          (hidden x0 x1 (ix2 p k))) (FloatOps.ofBits (F := Ideal) .f32 0x00000000#32) := by
  show FloatOps.maximumf (F := Ideal) (φ := .f32) (FloatOps.addf (F := Ideal) (φ := .f32) (FloatOps.addf (F := Ideal) (φ := .f32) (matmul dot_S2000x125_S125x128_S2000x128_1_0_0_1_n_n none (truncf .bf16 (middle x0 x1 x2 x3) bitsLt_bf16_f32) (truncf .bf16 x4 bitsLt_bf16_f32) (constant (F := Ideal) S2000x128 .f32 0x00000000#32) (ix2 p k))
      (broadcastTo S2000x128 (shapeCast S1x128 x5 shapeCasts_S1x128_S1x128) broadcasts_S1x128_S2000x128 (ix2 p k))) (hidden x0 x1 (ix2 p k))) _ = _
  rw [matmul_125x128_apply, shapeCast_self, ValueIdx.broadcastTo_1b_ab_apply]
  rfl

theorem scores_apply (p : Fin 2000) (k : Fin 2) :
    scores x0 x1 x2 x3 x4 x5 x6 x7 (ix2 p k)
      = FloatOps.maximumf (F := Ideal) (φ := .f32) (FloatOps.addf (F := Ideal) (φ := .f32) (∑ q : Fin 128, residual x0 x1 x2 x3 x4 x5 (ix2 p q) * x6 (ix2 q k)) (x7 (ix2 (0 : Fin 1) k))) (FloatOps.ofBits (F := Ideal) .f32 0x00000000#32) := by
  show FloatOps.maximumf (F := Ideal) (φ := .f32) (FloatOps.addf (F := Ideal) (φ := .f32) (matmul dot_S2000x128_S128x2_S2000x2_1_0_0_1_n_n none (truncf .bf16 (residual x0 x1 x2 x3 x4 x5) bitsLt_bf16_f32) (truncf .bf16 x6 bitsLt_bf16_f32) (constant (F := Ideal) S2000x2 .f32 0x00000000#32) (ix2 p k))
      (broadcastTo S2000x2 (shapeCast S1x2 x7 shapeCasts_S1x2_S1x2) broadcasts_S1x2_S2000x2 (ix2 p k))) _ = _
  rw [matmul_128x2_apply, shapeCast_self, ValueIdx.broadcastTo_1b_ab_apply]
  rfl

end Block

/-! ## The reference's four stages at (row, column) -/

section Reference
variable (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x125, .f32⟩ : BufTy).Contents (Elt Ideal)) (x10 : (⟨S125, .f32⟩ : BufTy).Contents (Elt Ideal)) (x11 : (⟨S125x128, .f32⟩ : BufTy).Contents (Elt Ideal)) (x12 : (⟨S128, .f32⟩ : BufTy).Contents (Elt Ideal)) (x13 : (⟨S128x2, .f32⟩ : BufTy).Contents (Elt Ideal)) (x14 : (⟨S2, .f32⟩ : BufTy).Contents (Elt Ideal))

theorem ref_hidden (r : Fin 100000) (k : Fin 128) :
    Cert.ReferenceIdeal.ReadP.val_main_v134 (F := Ideal) x0 x1 x3 x4 x5 x6 x7 x8 (ix2 r k)
      = FloatOps.addf (F := Ideal) (φ := .f32) (Cert.ReferenceIdeal.ReadP.val_main_v131 (F := Ideal) x0 x1 x3 x4 x5 x6 x7 (ix2 r k)) (x8 (ix1 k)) := by
  rw [Cert.ReferenceIdeal.ReadP.val_main_v134_apply, Cert.ReferenceIdeal.ReadP.val_main_v133_apply, Cert.ReferenceIdeal.ReadP.val_main_v132_apply]
  have hb : Cert.ReferenceIdeal.ReadP.idx_main_v132 (Cert.ReferenceIdeal.ReadP.idx_main_v133 (ix2 r k)) = ix1 k := funext fun a => by match a with | ⟨0, _⟩ => rfl
  rw [hb]

theorem ref_middle (r : Fin 100000) (k : Fin 125) :
    Cert.ReferenceIdeal.ReadP.val_main_v139 (F := Ideal) x0 x1 x3 x4 x5 x6 x7 x8 x9 x10 (ix2 r k)
      = FloatOps.maximumf (F := Ideal) (φ := .f32) (FloatOps.addf (F := Ideal) (φ := .f32) (∑ q : Fin 128, Cert.ReferenceIdeal.ReadP.val_main_v134 (F := Ideal) x0 x1 x3 x4 x5 x6 x7 x8 (ix2 r q) * x9 (ix2 q k)) (x10 (ix1 k))) (FloatOps.ofBits (F := Ideal) .f32 0x00000000#32) := by
  rw [Cert.ReferenceIdeal.ReadP.val_main_v139_apply, Cert.ReferenceIdeal.ReadP.val_main_v138_apply, Cert.ReferenceIdeal.ReadP.val_main_v135_apply, Cert.ReferenceIdeal.ReadP.val_main_v137_apply, Cert.ReferenceIdeal.ReadP.val_main_v136_apply,
    Cert.ReferenceIdeal.ReadP.val_main_call5_v0_apply, Cert.ReferenceIdeal.ReadP.val_main_call5_cst_apply]
  have hl : ∀ q : Fin 128, Cert.ReferenceIdeal.ReadP.lidx_main_v135 (ix2 r k) q = ix2 r q := fun q => funext fun a => by match a with | ⟨0, _⟩ => rfl | ⟨1, _⟩ => rfl
  have hr : ∀ q : Fin 128, Cert.ReferenceIdeal.ReadP.ridx_main_v135 (ix2 r k) q = ix2 q k := fun q => funext fun a => by match a with | ⟨0, _⟩ => rfl | ⟨1, _⟩ => rfl
  have hb : Cert.ReferenceIdeal.ReadP.idx_main_v136 (Cert.ReferenceIdeal.ReadP.idx_main_v137 (ix2 r k)) = ix1 k := funext fun a => by match a with | ⟨0, _⟩ => rfl
  simp only [hl, hr, hb]

theorem ref_residual (r : Fin 100000) (k : Fin 128) :
    Cert.ReferenceIdeal.ReadP.val_main_v145 (F := Ideal) x0 x1 x3 x4 x5 x6 x7 x8 x9 x10 x11 x12 (ix2 r k)
      = FloatOps.maximumf (F := Ideal) (φ := .f32) (FloatOps.addf (F := Ideal) (φ := .f32) (FloatOps.addf (F := Ideal) (φ := .f32) (∑ q : Fin 125, Cert.ReferenceIdeal.ReadP.val_main_v139 (F := Ideal) x0 x1 x3 x4 x5 x6 x7 x8 x9 x10 (ix2 r q) * x11 (ix2 q k)) (x12 (ix1 k)))
          (Cert.ReferenceIdeal.ReadP.val_main_v134 (F := Ideal) x0 x1 x3 x4 x5 x6 x7 x8 (ix2 r k))) (FloatOps.ofBits (F := Ideal) .f32 0x00000000#32) := by
  rw [Cert.ReferenceIdeal.ReadP.val_main_v145_apply, Cert.ReferenceIdeal.ReadP.val_main_v144_apply, Cert.ReferenceIdeal.ReadP.val_main_v143_apply, Cert.ReferenceIdeal.ReadP.val_main_v140_apply, Cert.ReferenceIdeal.ReadP.val_main_v142_apply, Cert.ReferenceIdeal.ReadP.val_main_v141_apply,
    Cert.ReferenceIdeal.ReadP.val_main_call6_v0_apply, Cert.ReferenceIdeal.ReadP.val_main_call6_cst_apply]
  have hl : ∀ q : Fin 125, Cert.ReferenceIdeal.ReadP.lidx_main_v140 (ix2 r k) q = ix2 r q := fun q => funext fun a => by match a with | ⟨0, _⟩ => rfl | ⟨1, _⟩ => rfl
  have hr : ∀ q : Fin 125, Cert.ReferenceIdeal.ReadP.ridx_main_v140 (ix2 r k) q = ix2 q k := fun q => funext fun a => by match a with | ⟨0, _⟩ => rfl | ⟨1, _⟩ => rfl
  have hb : Cert.ReferenceIdeal.ReadP.idx_main_v141 (Cert.ReferenceIdeal.ReadP.idx_main_v142 (ix2 r k)) = ix1 k := funext fun a => by match a with | ⟨0, _⟩ => rfl
  simp only [hl, hr, hb]

theorem ref_scores (r : Fin 100000) (k : Fin 2) :
    Cert.ReferenceIdeal.ReadP.val_main_v150 (F := Ideal) x0 x1 x3 x4 x5 x6 x7 x8 x9 x10 x11 x12 x13 x14 (ix2 r k)
      = FloatOps.maximumf (F := Ideal) (φ := .f32) (FloatOps.addf (F := Ideal) (φ := .f32) (∑ q : Fin 128, Cert.ReferenceIdeal.ReadP.val_main_v145 (F := Ideal) x0 x1 x3 x4 x5 x6 x7 x8 x9 x10 x11 x12 (ix2 r q) * x13 (ix2 q k)) (x14 (ix1 k))) (FloatOps.ofBits (F := Ideal) .f32 0x00000000#32) := by
  rw [Cert.ReferenceIdeal.ReadP.val_main_v150_apply, Cert.ReferenceIdeal.ReadP.val_main_v149_apply, Cert.ReferenceIdeal.ReadP.val_main_v146_apply, Cert.ReferenceIdeal.ReadP.val_main_v148_apply, Cert.ReferenceIdeal.ReadP.val_main_v147_apply,
    Cert.ReferenceIdeal.ReadP.val_main_call7_v0_apply, Cert.ReferenceIdeal.ReadP.val_main_call7_cst_apply]
  have hl : ∀ q : Fin 128, Cert.ReferenceIdeal.ReadP.lidx_main_v146 (ix2 r k) q = ix2 r q := fun q => funext fun a => by match a with | ⟨0, _⟩ => rfl | ⟨1, _⟩ => rfl
  have hr : ∀ q : Fin 128, Cert.ReferenceIdeal.ReadP.ridx_main_v146 (ix2 r k) q = ix2 q k := fun q => funext fun a => by match a with | ⟨0, _⟩ => rfl | ⟨1, _⟩ => rfl
  have hb : Cert.ReferenceIdeal.ReadP.idx_main_v147 (Cert.ReferenceIdeal.ReadP.idx_main_v148 (ix2 r k)) = ix1 k := funext fun a => by match a with | ⟨0, _⟩ => rfl
  simp only [hl, hr, hb]

end Reference

/-! ## Row by row the block's stages are the reference's -/

section Rows
variable (x0 : Vec Ideal S2000x128 .f32) (x1 : Vec Ideal S1x128 .f32) (x2 : Vec Ideal S128x125 .f32) (x3 : Vec Ideal S1x125 .f32) (x4 : Vec Ideal S125x128 .f32) (x5 : Vec Ideal S1x128 .f32) (x6 : Vec Ideal S128x2 .f32) (x7 : Vec Ideal S1x2 .f32)
variable (a0 : (⟨S100000x128, .f32⟩ : BufTy).Contents (Elt Ideal)) (a1 : (⟨S2x1600000, .i32⟩ : BufTy).Contents (Elt Ideal)) (a3 : (⟨S128x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x125, .f32⟩ : BufTy).Contents (Elt Ideal)) (a10 : (⟨S125, .f32⟩ : BufTy).Contents (Elt Ideal)) (a11 : (⟨S125x128, .f32⟩ : BufTy).Contents (Elt Ideal)) (a12 : (⟨S128, .f32⟩ : BufTy).Contents (Elt Ideal)) (a13 : (⟨S128x2, .f32⟩ : BufTy).Contents (Elt Ideal)) (a14 : (⟨S2, .f32⟩ : BufTy).Contents (Elt Ideal))
variable (base : Nat) (hbase : base + 2000 ≤ 100000)

/-- Row `base + p` of the whole array, for a row `p` of the block. -/
abbrev rowOf (p : Fin 2000) : Fin 100000 := ⟨base + p.val, by have := p.isLt; omega⟩

variable (h0 : ∀ (p : Fin 2000) (k : Fin 128), x0 (ix2 p k) = Cert.ReferenceIdeal.ReadP.val_main_v131 (F := Ideal) a0 a1 a3 a4 a5 a6 a7 (ix2 (rowOf base hbase p) k))
  (h1 : ∀ k : Fin 128, x1 (ix2 (0 : Fin 1) k) = a8 (ix1 k))
  (h2 : ∀ (q : Fin 128) (k : Fin 125), x2 (ix2 q k) = a9 (ix2 q k))
  (h3 : ∀ k : Fin 125, x3 (ix2 (0 : Fin 1) k) = a10 (ix1 k))
  (h4 : ∀ (q : Fin 125) (k : Fin 128), x4 (ix2 q k) = a11 (ix2 q k))
  (h5 : ∀ k : Fin 128, x5 (ix2 (0 : Fin 1) k) = a12 (ix1 k))
  (h6 : ∀ (q : Fin 128) (k : Fin 2), x6 (ix2 q k) = a13 (ix2 q k))
  (h7 : ∀ k : Fin 2, x7 (ix2 (0 : Fin 1) k) = a14 (ix1 k))

include h0 h1 in
theorem hidden_row (p : Fin 2000) (k : Fin 128) :
    hidden x0 x1 (ix2 p k) = Cert.ReferenceIdeal.ReadP.val_main_v134 (F := Ideal) a0 a1 a3 a4 a5 a6 a7 a8 (ix2 (rowOf base hbase p) k) := by
  rw [hidden_apply, ref_hidden, h0, h1]

include h0 h1 h2 h3 in
theorem middle_row (p : Fin 2000) (k : Fin 125) :
    middle x0 x1 x2 x3 (ix2 p k) = Cert.ReferenceIdeal.ReadP.val_main_v139 (F := Ideal) a0 a1 a3 a4 a5 a6 a7 a8 a9 a10 (ix2 (rowOf base hbase p) k) := by
  rw [middle_apply, ref_middle, h3]
  refine congrArg (fun s => FloatOps.maximumf (F := Ideal) (φ := .f32) (FloatOps.addf (F := Ideal) (φ := .f32) s _) _) (Finset.sum_congr rfl fun q _ => ?_)
  rw [hidden_row x0 x1 a0 a1 a3 a4 a5 a6 a7 a8 base hbase h0 h1 p q, h2]

include h0 h1 h2 h3 h4 h5 in
theorem residual_row (p : Fin 2000) (k : Fin 128) :
    residual x0 x1 x2 x3 x4 x5 (ix2 p k) = Cert.ReferenceIdeal.ReadP.val_main_v145 (F := Ideal) a0 a1 a3 a4 a5 a6 a7 a8 a9 a10 a11 a12 (ix2 (rowOf base hbase p) k) := by
  rw [residual_apply, ref_residual, h5, hidden_row x0 x1 a0 a1 a3 a4 a5 a6 a7 a8 base hbase h0 h1 p k]
  refine congrArg (fun s => FloatOps.maximumf (F := Ideal) (φ := .f32) (FloatOps.addf (F := Ideal) (φ := .f32) (FloatOps.addf (F := Ideal) (φ := .f32) s _) _) _) (Finset.sum_congr rfl fun q _ => ?_)
  rw [middle_row x0 x1 x2 x3 a0 a1 a3 a4 a5 a6 a7 a8 a9 a10 base hbase h0 h1 h2 h3 p q, h4]

include h0 h1 h2 h3 h4 h5 h6 h7 in
/-- THE BODY'S STORED VALUE at (row `p`, column `k`) of the block is the reference's head at row `base + p`. -/
theorem scores_row (p : Fin 2000) (k : Fin 2) :
    k3_pay1 (F := Ideal) x0 x1 x2 x3 x4 x5 x6 x7 (ix2 p k)
      = Cert.ReferenceIdeal.ReadP.val_main_v150 (F := Ideal) a0 a1 a3 a4 a5 a6 a7 a8 a9 a10 a11 a12 a13 a14 (ix2 (rowOf base hbase p) k) := by
  rw [payload_eq, scores_apply, ref_scores, h7]
  refine congrArg (fun s => FloatOps.maximumf (F := Ideal) (φ := .f32) (FloatOps.addf (F := Ideal) (φ := .f32) s _) _) (Finset.sum_congr rfl fun q _ => ?_)
  rw [residual_row x0 x1 x2 x3 x4 x5 a0 a1 a3 a4 a5 a6 a7 a8 a9 a10 a11 a12 base hbase h0 h1 h2 h3 h4 h5 p q, h6]

end Rows

end Cert.KernelIdeal.HeadRows

end
-- ==== Proof.Layer3.lean ====
/-
  The last region: the dense head on a block of 2000 rows.

  Grid point `t` of 50 stages rows 2000·t … 2000·t + 1999 of the third aggregate, the three weight matrices whole,
  and each of the four bias vectors as one row; the body computes the head's four stages on the block and writes
  the 2000×2 result back to the same rows of the output array. The blocks tile the 100000 rows. So if the
  aggregate the region finds is the reference's third aggregate and the bias rows are the bias vectors laid out
  as rows, the output array is the reference's head: row `r` of it is the head's last stage at row `r`.
-/
import proofs.«129497_j21380347199506_1_alg».proof.Proof.Gen.KernelIdeal.Frame
import proofs.«129497_j21380347199506_1_alg».proof.Proof.RefReadP
import proofs.«129497_j21380347199506_1_alg».proof.Proof.HeadRows
import proofs.«129497_j21380347199506_1_alg».proof.Proof.LibViewRead
import Idealize.ShloMosaic.Lib.Pipeline.Value
import Idealize.ShloMosaic.Lib.ValueLayout

set_option maxRecDepth 16384

noncomputable section

namespace Cert.KernelIdeal.Layer3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row windows (the aggregate and the output) sit at block (t, 0),
    every weight and every bias row at block (0, 0). -/
theorem block_positions : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- What point `t` writes back is block `t` of the reference's head. -/
theorem written_back (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x125, .f32⟩ : BufTy).Contents (Elt Ideal)) (x10 : (⟨S125, .f32⟩ : BufTy).Contents (Elt Ideal)) (x11 : (⟨S125x128, .f32⟩ : BufTy).Contents (Elt Ideal)) (x12 : (⟨S128, .f32⟩ : BufTy).Contents (Elt Ideal)) (x13 : (⟨S128x2, .f32⟩ : BufTy).Contents (Elt Ideal)) (x14 : (⟨S2, .f32⟩ : BufTy).Contents (Elt Ideal)) (c : Dev nD)
    (h0in : V c main_v125 = Cert.ReferenceIdeal.ReadP.val_main_v131 (F := Ideal) x0 x1 x3 x4 x5 x6 x7)
    (h1in : V c main_v126 = shapeCast S1x128 x8 shapeCasts_S128_S1x128)
    (h2in : V c main_arg9 = x9)
    (h3in : V c main_v127 = shapeCast S1x125 x10 shapeCasts_S125_S1x125)
    (h4in : V c main_arg11 = x11)
    (h5in : V c main_v128 = shapeCast S1x128 x12 shapeCasts_S128_S1x128)
    (h6in : V c main_arg13 = x13)
    (h7in : V c main_v129 = shapeCast S1x2 x14 shapeCasts_S2_S1x2) (t : Fin cfg3.N) :
    (dat3 V c).flushed 8 t = ((cfg3.win 8).blk t).view.read (Elt Ideal)
      (Cert.ReferenceIdeal.ReadP.val_main_v150 (F := Ideal) x0 x1 x3 x4 x5 x6 x7 x8 x9 x10 x11 x12 x13 x14) := by
  generalize hG : Cert.ReferenceIdeal.ReadP.val_main_v150 (F := Ideal) x0 x1 x3 x4 x5 x6 x7 x8 x9 x10 x11 x12 x13 x14 = G
  show (cfg3.win 8).cut (grid3.coords t) ((dat3 V c).after 8 t) = _
  rw [after3_8]
  unfold out3_8
  rw [View.canon_unit_zero zero_offsets]
  simp only [View.ld_unit_zero (S := S2000x128) zero_offsets, View.ld_unit_zero (S := S1x128) zero_offsets,
    View.ld_unit_zero (S := S128x125) zero_offsets, View.ld_unit_zero (S := S1x125) zero_offsets,
    View.ld_unit_zero (S := S125x128) zero_offsets, View.ld_unit_zero (S := S128x2) zero_offsets,
    View.ld_unit_zero (S := S1x2) zero_offsets]
  obtain ⟨e0, e1, e2, e3, e4, e5, e6, e7, e8, e9, e10, e11, e12, e13, e14, e15, e16, e17⟩ := block_positions t
  have hN : cfg3.N = 50 := N_3
  have htlt : t.val < 50 := hN ▸ t.isLt
  have hbase : 2000 * t.val + 2000 ≤ 100000 := by omega
  have hb0 : ∀ (p : Fin 2000) (k : Fin 128), iblk3 V c 0 t (ix2 p k)
      = Cert.ReferenceIdeal.ReadP.val_main_v131 (F := Ideal) x0 x1 x3 x4 x5 x6 x7 (ix2 (HeadRows.rowOf (2000 * t.val) hbase p) k) := fun p k => by
    refine View.read_apply_eq_of_heq _ _ _ _ (heq_of_eq ?_)
    show V c main_v125 (((cfg3.win 0).blk t).view.emb (ix2 p k)) = _
    have hidx : ((cfg3.win 0).blk t).view.emb (ix2 p k) = ix2 (HeadRows.rowOf (2000 * t.val) hbase p) k := by
      funext a; apply Fin.ext
      match a with
      | ⟨0, _⟩ => show win3_0.index t (0 : Fin 2) * 2000 + 1 * p.val = 2000 * t.val + p.val; omega
      | ⟨1, _⟩ => show win3_0.index t (1 : Fin 2) * 128 + 1 * k.val = k.val; omega
    rw [hidx, h0in]

  have hb1 : ∀ k : Fin 128, iblk3 V c 1 t (ix2 (0 : Fin 1) k) = x8 (ix1 k) := fun k => by
    refine View.read_apply_eq_of_heq _ _ _ _ (heq_of_eq ?_)
    show V c main_v126 (((cfg3.win 1).blk t).view.emb (ix2 (0 : Fin 1) k)) = _
    rw [h1in]
    have hix : ((cfg3.win 1).blk t).view.emb (ix2 (0 : Fin 1) k) = ix2 (0 : Fin 1) k := by
      funext a; apply Fin.ext
      match a with
      | ⟨0, _⟩ => show win3_1.index t (0 : Fin 2) * 1 + 1 * 0 = 0; omega
      | ⟨1, _⟩ => show win3_1.index t (1 : Fin 2) * 128 + 1 * k.val = k.val; omega
    rw [hix, ValueIdx.shapeCast_a_1a_apply]

  have hb2 : ∀ (q : Fin 128) (k : Fin 125), iblk3 V c 2 t (ix2 q k) = x9 (ix2 q k) := fun q k => by
    refine View.read_apply_eq_of_heq _ _ _ _ (heq_of_eq ?_)
    show V c main_arg9 (((cfg3.win 2).blk t).view.emb (ix2 q k)) = _
    rw [h2in]
    refine congrArg _ (funext fun a => Fin.ext ?_)
    match a with
    | ⟨0, _⟩ => show win3_2.index t (0 : Fin 2) * 128 + 1 * q.val = q.val; omega
    | ⟨1, _⟩ => show win3_2.index t (1 : Fin 2) * 125 + 1 * k.val = k.val; omega

  have hb3 : ∀ k : Fin 125, iblk3 V c 3 t (ix2 (0 : Fin 1) k) = x10 (ix1 k) := fun k => by
    refine View.read_apply_eq_of_heq _ _ _ _ (heq_of_eq ?_)
    show V c main_v127 (((cfg3.win 3).blk t).view.emb (ix2 (0 : Fin 1) k)) = _
    rw [h3in]
    have hix : ((cfg3.win 3).blk t).view.emb (ix2 (0 : Fin 1) k) = ix2 (0 : Fin 1) k := by
      funext a; apply Fin.ext
      match a with
      | ⟨0, _⟩ => show win3_3.index t (0 : Fin 2) * 1 + 1 * 0 = 0; omega
      | ⟨1, _⟩ => show win3_3.index t (1 : Fin 2) * 125 + 1 * k.val = k.val; omega
    rw [hix, ValueIdx.shapeCast_a_1a_apply]

  have hb4 : ∀ (q : Fin 125) (k : Fin 128), iblk3 V c 4 t (ix2 q k) = x11 (ix2 q k) := fun q k => by
    refine View.read_apply_eq_of_heq _ _ _ _ (heq_of_eq ?_)
    show V c main_arg11 (((cfg3.win 4).blk t).view.emb (ix2 q k)) = _
    rw [h4in]
    refine congrArg _ (funext fun a => Fin.ext ?_)
    match a with
    | ⟨0, _⟩ => show win3_4.index t (0 : Fin 2) * 125 + 1 * q.val = q.val; omega
    | ⟨1, _⟩ => show win3_4.index t (1 : Fin 2) * 128 + 1 * k.val = k.val; omega

  have hb5 : ∀ k : Fin 128, iblk3 V c 5 t (ix2 (0 : Fin 1) k) = x12 (ix1 k) := fun k => by
    refine View.read_apply_eq_of_heq _ _ _ _ (heq_of_eq ?_)
    show V c main_v128 (((cfg3.win 5).blk t).view.emb (ix2 (0 : Fin 1) k)) = _
    rw [h5in]
    have hix : ((cfg3.win 5).blk t).view.emb (ix2 (0 : Fin 1) k) = ix2 (0 : Fin 1) k := by
      funext a; apply Fin.ext
      match a with
      | ⟨0, _⟩ => show win3_5.index t (0 : Fin 2) * 1 + 1 * 0 = 0; omega
      | ⟨1, _⟩ => show win3_5.index t (1 : Fin 2) * 128 + 1 * k.val = k.val; omega
    rw [hix, ValueIdx.shapeCast_a_1a_apply]

  have hb6 : ∀ (q : Fin 128) (k : Fin 2), iblk3 V c 6 t (ix2 q k) = x13 (ix2 q k) := fun q k => by
    refine View.read_apply_eq_of_heq _ _ _ _ (heq_of_eq ?_)
    show V c main_arg13 (((cfg3.win 6).blk t).view.emb (ix2 q k)) = _
    rw [h6in]
    refine congrArg _ (funext fun a => Fin.ext ?_)
    match a with
    | ⟨0, _⟩ => show win3_6.index t (0 : Fin 2) * 128 + 1 * q.val = q.val; omega
    | ⟨1, _⟩ => show win3_6.index t (1 : Fin 2) * 2 + 1 * k.val = k.val; omega

  have hb7 : ∀ k : Fin 2, iblk3 V c 7 t (ix2 (0 : Fin 1) k) = x14 (ix1 k) := fun k => by
    refine View.read_apply_eq_of_heq _ _ _ _ (heq_of_eq ?_)
    show V c main_v129 (((cfg3.win 7).blk t).view.emb (ix2 (0 : Fin 1) k)) = _
    rw [h7in]
    have hix : ((cfg3.win 7).blk t).view.emb (ix2 (0 : Fin 1) k) = ix2 (0 : Fin 1) k := by
      funext a; apply Fin.ext
      match a with
      | ⟨0, _⟩ => show win3_7.index t (0 : Fin 2) * 1 + 1 * 0 = 0; omega
      | ⟨1, _⟩ => show win3_7.index t (1 : Fin 2) * 2 + 1 * k.val = k.val; omega
    rw [hix, ValueIdx.shapeCast_a_1a_apply]
  generalize hP : k3_pay1 (iblk3 V c 0 t) (iblk3 V c 1 t) (iblk3 V c 2 t) (iblk3 V c 3 t) (iblk3 V c 4 t) (iblk3 V c 5 t) (iblk3 V c 6 t) (iblk3 V c 7 t) = P
  suffices key : ∀ j : S2000x2.Idx, P j = G (((cfg3.win 8).blk t).view.emb j) from
    (View.read_eq_of_forall_heq ((cfg3.win 8).blk t).view G ((cfg3.win 8).cut (grid3.coords t) P)
      (fun j => heq_of_eq (key j).symm)).symm
  intro j
  obtain ⟨p, q, rfl⟩ : ∃ (p : Fin 2000) (q : Fin 2), j = ix2 p q := ⟨j 0, j 1, eq_ix2 j⟩
  have hemb : ((cfg3.win 8).blk t).view.emb (ix2 p q) = ix2 (HeadRows.rowOf (2000 * t.val) hbase p) q := by
    funext a; apply Fin.ext
    match a with
    | ⟨0, _⟩ => show win3_8.index t (0 : Fin 2) * 2000 + 1 * p.val = 2000 * t.val + p.val; omega
    | ⟨1, _⟩ => show win3_8.index t (1 : Fin 2) * 2 + 1 * q.val = q.val; omega
  rw [hemb]
  subst hP hG
  exact HeadRows.scores_row (iblk3 V c 0 t) (iblk3 V c 1 t) (iblk3 V c 2 t) (iblk3 V c 3 t) (iblk3 V c 4 t) (iblk3 V c 5 t) (iblk3 V c 6 t) (iblk3 V c 7 t)
    x0 x1 x3 x4 x5 x6 x7 x8 x9 x10 x11 x12 x13 x14 (2000 * t.val) hbase hb0 hb1 hb2 hb3 hb4 hb5 hb6 hb7 p q

/-- An index of the output array is in point `t`'s block iff each coordinate is in the block's range. -/
theorem mem_block (t : Fin cfg3.N) (i : S100000x2.Idx) :
    i ∈ ((cfg3.win 8).blk t).view.set ↔ ∀ a : Fin 2, win3_8.index t a * S2000x2.size a ≤ (i a).val ∧ (i a).val < win3_8.index t a * S2000x2.size a + S2000x2.size a := by
  show i ∈ ((View.whole main_v130).slice (win3_8.rect t)).set ↔ _
  rw [View.set_slice_whole, Rect.mem_set_unit]
  exact Iff.rfl

/-- Every row is in some point's block: row `r` is in block `r / 2000`. -/
theorem covered (i : S100000x2.Idx) :
    ∃ t : Fin cfg3.N, (cfg3.win 8).flush t = true ∧ i ∈ ((cfg3.win 8).blk t).view.set := by
  have hi0 : (i 0).val < 100000 := (i 0).isLt
  have hi1 : (i 1).val < 2 := (i 1).isLt
  have hN : cfg3.N = 50 := N_3
  have hlt : (i 0).val / 2000 < cfg3.N := by rw [hN]; omega
  obtain ⟨e0, e1, e2, e3, e4, e5, e6, e7, e8, e9, e10, e11, e12, e13, e14, e15, e16, e17⟩ := block_positions ⟨(i 0).val / 2000, hlt⟩
  refine ⟨⟨(i 0).val / 2000, hlt⟩, flush3_8 _, ?_⟩
  rw [mem_block]
  intro a
  match a with
  | ⟨0, _⟩ =>
    show win3_8.index ⟨(i 0).val / 2000, hlt⟩ (0 : Fin 2) * 2000 ≤ (i 0).val ∧ (i 0).val < win3_8.index ⟨(i 0).val / 2000, hlt⟩ (0 : Fin 2) * 2000 + 2000
    rw [e16]; show (i 0).val / 2000 * 2000 ≤ (i 0).val ∧ (i 0).val < (i 0).val / 2000 * 2000 + 2000; omega
  | ⟨1, _⟩ =>
    show win3_8.index ⟨(i 0).val / 2000, hlt⟩ (1 : Fin 2) * 2 ≤ (i 1).val ∧ (i 1).val < win3_8.index ⟨(i 0).val / 2000, hlt⟩ (1 : Fin 2) * 2 + 2
    rw [e17]; omega

/-- THE OUTPUT ARRAY after the region: the reference's head. -/
theorem output (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x125, .f32⟩ : BufTy).Contents (Elt Ideal)) (x10 : (⟨S125, .f32⟩ : BufTy).Contents (Elt Ideal)) (x11 : (⟨S125x128, .f32⟩ : BufTy).Contents (Elt Ideal)) (x12 : (⟨S128, .f32⟩ : BufTy).Contents (Elt Ideal)) (x13 : (⟨S128x2, .f32⟩ : BufTy).Contents (Elt Ideal)) (x14 : (⟨S2, .f32⟩ : BufTy).Contents (Elt Ideal)) (c : Dev nD)
    (h0in : V c main_v125 = Cert.ReferenceIdeal.ReadP.val_main_v131 (F := Ideal) x0 x1 x3 x4 x5 x6 x7)
    (h1in : V c main_v126 = shapeCast S1x128 x8 shapeCasts_S128_S1x128)
    (h2in : V c main_arg9 = x9)
    (h3in : V c main_v127 = shapeCast S1x125 x10 shapeCasts_S125_S1x125)
    (h4in : V c main_arg11 = x11)
    (h5in : V c main_v128 = shapeCast S1x128 x12 shapeCasts_S128_S1x128)
    (h6in : V c main_arg13 = x13)
    (h7in : V c main_v129 = shapeCast S1x2 x14 shapeCasts_S2_S1x2) :
    (dat3 V c).arrAt 8 cfg3.N = Cert.ReferenceIdeal.ReadP.val_main_v150 (F := Ideal) x0 x1 x3 x4 x5 x6 x7 x8 x9 x10 x11 x12 x13 x14 :=
  (dat3 V c).arrAt_eq_of_cover 8 _ (fun t _ => written_back V x0 x1 x3 x4 x5 x6 x7 x8 x9 x10 x11 x12 x13 x14 c h0in h1in h2in h3in h4in h5in h6in h7in t) covered

end Cert.KernelIdeal.Layer3

end
-- ==== Proof.FoldC.lean ====
/-
  The fold of buffer contents through @main, last part: the third aggregation, the dense head and the pooling.

  The third aggregate is the reference's operations %93 … %131 applied to the third product; the four bias vectors
  of the head are laid out as rows; the last region's output is the reference's head (the layer lemma); and the
  final stretch — the per-graph sums of the head's rows by a scatter over the batch vector, the per-graph counts
  by a scatter of ones, the counts raised to at least one, and the division — is the same sixteen host
  operations in both programs applied to the same head and the same batch vector. So the kernel's result array,
  the last valuation of the fold read at the division's buffer, is the reference's result as a function of the
  arguments as launched.
-/
import proofs.«129497_j21380347199506_1_alg».proof.Proof.Gen.KernelIdeal.Frame
import proofs.«129497_j21380347199506_1_alg».proof.Proof.RefReadP
import proofs.«129497_j21380347199506_1_alg».proof.Proof.FoldB
import proofs.«129497_j21380347199506_1_alg».proof.Proof.Layer3
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The third aggregation and the last region's entry -/

/-! ### Layer 3: the first stretch — self-loops appended, degrees counted, compared with zero, inverse square roots -/

/-- The sources with the self-loops appended. -/
theorem W11_v88 : W11 m ρ c (Proc.devRef .tc main_v88) = Cert.ReferenceIdeal.ReadP.val_main_v94 (F := Ideal) (A1 m c) := by
  show StableHlo.after hostOps3 (W10 m ρ c) (Proc.devRef .tc main_v88) = _
  after_results_simp
  reads_in_lists
  rw [W10_v1]
  rfl
/-- The targets with the self-loops appended. -/
theorem W11_v89 : W11 m ρ c (Proc.devRef .tc main_v89) = Cert.ReferenceIdeal.ReadP.val_main_v95 (F := Ideal) (A1 m c) := by
  show StableHlo.after hostOps3 (W10 m ρ c) (Proc.devRef .tc main_v89) = _
  after_results_simp
  reads_in_lists
  rw [W10_v3]
  rfl
/-- Which nodes have positive degree (the degrees are a scatter of ones over the targets). -/
theorem W11_v95 : W11 m ρ c (Proc.devRef .tc main_v95) = Cert.ReferenceIdeal.ReadP.val_main_v101 (F := Ideal) (A1 m c) := by
  show StableHlo.after hostOps3 (W10 m ρ c) (Proc.devRef .tc main_v95) = _
  after_results_simp
  reads_in_lists
  rw [W10_v3]
  rfl
/-- The inverse square roots of the degrees. -/
theorem W11_v96 : W11 m ρ c (Proc.devRef .tc main_v96) = Cert.ReferenceIdeal.ReadP.val_main_v102 (F := Ideal) (A1 m c) := by
  show StableHlo.after hostOps3 (W10 m ρ c) (Proc.devRef .tc main_v96) = _
  after_results_simp
  reads_in_lists
  rw [W10_v3]
  rfl
/-- The zero the normalizer takes where the degree is not positive. -/
theorem W11_cst_23 : W11 m ρ c (Proc.devRef .tc main_cst_23) = Cert.ReferenceIdeal.ReadP.val_main_cst_23 (F := Ideal) := by
  show StableHlo.after hostOps3 (W10 m ρ c) (Proc.devRef .tc main_cst_23) = _
  after_results_simp <;> rfl

/-! ### Layer 3: the called selection — the normalizer `where(deg > 0, rsqrt(deg), 0)` -/

/-- The called selection on ANY contents `Vv` of the buffers: its three operations read their operands through
    the called function's typed references, and the conversions between a typed reference's contents and its
    buffer's are the identity — seen here with the operands opaque, so that nothing but the conversions unfolds. -/
theorem selection3 (Vv : Valuation τ sig (Elt Ideal)) :
    StableHlo.after hostOps3_1 Vv (Proc.devRef .tc main_v97)
      = select (Vv (Proc.devRef .tc main_v95) : (⟨S100000, .i1⟩ : BufTy).Contents (Elt Ideal))
          (Vv (Proc.devRef .tc main_v96) : (⟨S100000, .f32⟩ : BufTy).Contents (Elt Ideal))
          (broadcastInDim S100000 ![] bcast_S_S100000 (id (Vv (Proc.devRef .tc main_cst_23) : (⟨S_, .f32⟩ : BufTy).Contents (Elt Ideal)))) := by
  after_results_simp
  rfl

/-- The normalizer `where(deg > 0, rsqrt(deg), 0)`: the selection of the three stages the first stretch left. -/
theorem W12_v97 : W12 m ρ c (Proc.devRef .tc main_v97) = Cert.ReferenceIdeal.ReadP.val_main_v103 (F := Ideal) (A1 m c) := by
  refine (selection3 (W11 m ρ c)).trans ?_
  rw [W11_v95 m ρ c, W11_v96 m ρ c, W11_cst_23 m ρ c]
  rfl
theorem W12_v88 : W12 m ρ c (Proc.devRef .tc main_v88) = Cert.ReferenceIdeal.ReadP.val_main_v94 (F := Ideal) (A1 m c) := by
  refine Eq.trans ?_ (W11_v88 m ρ c)
  show StableHlo.after hostOps3_1 (W11 m ρ c) (Proc.devRef .tc main_v88) = W11 m ρ c (Proc.devRef .tc main_v88)
  generalize W11 m ρ c = Vv
  after_results_simp
theorem W12_v89 : W12 m ρ c (Proc.devRef .tc main_v89) = Cert.ReferenceIdeal.ReadP.val_main_v95 (F := Ideal) (A1 m c) := by
  refine Eq.trans ?_ (W11_v89 m ρ c)
  show StableHlo.after hostOps3_1 (W11 m ρ c) (Proc.devRef .tc main_v89) = W11 m ρ c (Proc.devRef .tc main_v89)
  generalize W11 m ρ c = Vv
  after_results_simp
/-- The region's output is not touched by the first two stretches. -/
theorem W12_v86 : W12 m ρ c (Proc.devRef .tc main_v86) = Cert.ReferenceIdeal.ReadP.val_main_v92 (F := Ideal) (A0 m c) (A1 m c) (A3 m c) (A4 m c) (A5 m c) (A6 m c) (A7 m c) := by
  refine Eq.trans ?_ (W10_v86 m ρ c)
  show StableHlo.after hostOps3_1 (StableHlo.after hostOps3 (W10 m ρ c)) (Proc.devRef .tc main_v86) = _
  after_results_simp

/-! ### Layer 3: the long stretch — gather both normalizers and the rows, scale, scatter to the targets -/

/-- THE AGGREGATE of layer 3: the region's output gathered at the sources, each row scaled by the product of
    the normalizers at its two ends, and summed into its target — the same operations in both programs, applied
    to the same product, the same index vectors and the same normalizer. -/
theorem W13_v125 : W13 m ρ c (Proc.devRef .tc main_v125) = Cert.ReferenceIdeal.ReadP.val_main_v131 (F := Ideal) (A0 m c) (A1 m c) (A3 m c) (A4 m c) (A5 m c) (A6 m c) (A7 m c) := by
  show StableHlo.after hostOps3_2 (W12 m ρ c) (Proc.devRef .tc main_v125) = _
  have h1 := W12_v86 m ρ c
  have h2 := W12_v88 m ρ c
  have h3 := W12_v89 m ρ c
  have h4 := W12_v97 m ρ c
  generalize W12 m ρ c = Vv at h1 h2 h3 h4 ⊢
  after_results_simp
  rw [h1, h2, h3, h4]
  rfl

/-! The head's four bias vectors, each laid out as one row. -/
theorem W13_v126 : W13 m ρ c (Proc.devRef .tc main_v126) = shapeCast S1x128 (A8 m c) shapeCasts_S128_S1x128 := by
  show StableHlo.after hostOps3_2 (StableHlo.after hostOps3_1 (StableHlo.after hostOps3 (W10 m ρ c))) (Proc.devRef .tc main_v126) = _
  after_results_simp
  rw [W10_arg8]
  rfl
theorem W13_v127 : W13 m ρ c (Proc.devRef .tc main_v127) = shapeCast S1x125 (A10 m c) shapeCasts_S125_S1x125 := by
  show StableHlo.after hostOps3_2 (StableHlo.after hostOps3_1 (StableHlo.after hostOps3 (W10 m ρ c))) (Proc.devRef .tc main_v127) = _
  after_results_simp
  rw [W10_arg10]
  rfl
theorem W13_v128 : W13 m ρ c (Proc.devRef .tc main_v128) = shapeCast S1x128 (A12 m c) shapeCasts_S128_S1x128 := by
  show StableHlo.after hostOps3_2 (StableHlo.after hostOps3_1 (StableHlo.after hostOps3 (W10 m ρ c))) (Proc.devRef .tc main_v128) = _
  after_results_simp
  rw [W10_arg12]
  rfl
theorem W13_v129 : W13 m ρ c (Proc.devRef .tc main_v129) = shapeCast S1x2 (A14 m c) shapeCasts_S2_S1x2 := by
  show StableHlo.after hostOps3_2 (StableHlo.after hostOps3_1 (StableHlo.after hostOps3 (W10 m ρ c))) (Proc.devRef .tc main_v129) = _
  after_results_simp
  rw [W10_arg14]
  rfl

theorem W13_arg2 : W13 m ρ c (Proc.devRef .tc main_arg2) = A2 m c := by
  refine Eq.trans ?_ (W10_arg2 m ρ c)
  show StableHlo.after hostOps3_2 (StableHlo.after hostOps3_1 (StableHlo.after hostOps3 (W10 m ρ c))) (Proc.devRef .tc main_arg2) = _
  after_results_simp
theorem W13_arg9 : W13 m ρ c (Proc.devRef .tc main_arg9) = A9 m c := by
  refine Eq.trans ?_ (W10_arg9 m ρ c)
  show StableHlo.after hostOps3_2 (StableHlo.after hostOps3_1 (StableHlo.after hostOps3 (W10 m ρ c))) (Proc.devRef .tc main_arg9) = _
  after_results_simp
theorem W13_arg11 : W13 m ρ c (Proc.devRef .tc main_arg11) = A11 m c := by
  refine Eq.trans ?_ (W10_arg11 m ρ c)
  show StableHlo.after hostOps3_2 (StableHlo.after hostOps3_1 (StableHlo.after hostOps3 (W10 m ρ c))) (Proc.devRef .tc main_arg11) = _
  after_results_simp
theorem W13_arg13 : W13 m ρ c (Proc.devRef .tc main_arg13) = A13 m c := by
  refine Eq.trans ?_ (W10_arg13 m ρ c)
  show StableHlo.after hostOps3_2 (StableHlo.after hostOps3_1 (StableHlo.after hostOps3 (W10 m ρ c))) (Proc.devRef .tc main_arg13) = _
  after_results_simp

/-! ## After the last region -/

/-- The last region's output: the reference's head. -/
theorem W14_v130 : W14 m ρ c (Proc.devRef .tc main_v130) = Cert.ReferenceIdeal.ReadP.val_main_v150 (F := Ideal) (A0 m c) (A1 m c) (A3 m c) (A4 m c) (A5 m c) (A6 m c) (A7 m c) (A8 m c) (A9 m c) (A10 m c) (A11 m c) (A12 m c) (A13 m c) (A14 m c) :=
  (W14_arr m ρ c 8).trans (Layer3.output (V13 m ρ) (A0 m c) (A1 m c) (A3 m c) (A4 m c) (A5 m c) (A6 m c) (A7 m c) (A8 m c) (A9 m c) (A10 m c) (A11 m c) (A12 m c) (A13 m c) (A14 m c) c
    (W13_v125 m ρ c) (W13_v126 m ρ c) (W13_arg9 m ρ c) (W13_v127 m ρ c) (W13_arg11 m ρ c) (W13_v128 m ρ c) (W13_arg13 m ρ c) (W13_v129 m ρ c))

theorem W14_arg2 : W14 m ρ c (Proc.devRef .tc main_arg2) = A2 m c :=
  (W14_of_ne m ρ c main_arg2 (by decide)).trans (W13_arg2 m ρ c)

/-! ## The pooling: the result -/

/-- THE KERNEL'S RESULT: the last valuation of the fold, read at the final division's buffer, is the reference's
    result as a function of the fifteen arguments as launched. -/
theorem W15_v142 : W15 m ρ c (Proc.devRef .tc main_v142) = Cert.ReferenceIdeal.ReadP.val_main_v162 (F := Ideal) (A0 m c) (A1 m c) (A2 m c) (A3 m c) (A4 m c) (A5 m c) (A6 m c) (A7 m c) (A8 m c) (A9 m c) (A10 m c) (A11 m c) (A12 m c) (A13 m c) (A14 m c) := by
  show StableHlo.after hostOps4 (W14 m ρ c) (Proc.devRef .tc main_v142) = _
  after_results_simp
  rw [W14_v130, W14_arg2]
  rfl

end Cert.KernelIdeal.Fold

end
-- ==== Proof.lean ====
/-
  A three-layer graph convolution network with a dense head and mean pooling, kernel against reference.

  Both programs compute, for node features x (100000×128), an edge list (2×1600000), a batch vector and weights,
      h1 = relu(agg(x·W1) + b1),  h2 = relu(agg(h1·W2) + b2),  h = agg(h2·W3) + b3,
      x1 = relu(h·Wl1 + bl1),  h' = relu(x1·Wl2 + bl2 + h),  out = relu(h'·Wl3 + bl3),
      result = (per-graph sums of out) / max(per-graph counts, 1),
  where agg appends a self-loop to every node, counts degrees, and sums over the edges into each target the source
  row scaled by the inverse square roots of the two degrees. The reference does all of it with whole-array host
  operations. The kernel does the aggregations and the pooling with the same host operations, and the dense
  parts in four pipelined regions over blocks of 2000 rows: x·W1; relu(· + b1)·W2; relu(· + b2)·W3; and the
  head from `· + b3` on. The contracted axis is never split, so on the extended reals every entry is the same
  sum of the same products on both sides, the changes of float format are the identity, and a product
  accumulated into zeros is the plain sum: no law that needs finiteness is used, and the precondition is not
  opened.

  The kernel's run (Proof/KernelRun.lean) ends with the result array at the last valuation of the fold of buffer
  contents through @main's segments; that valuation is computed layer by layer (Proof/FoldA.lean, FoldB.lean,
  FoldC.lean) with each region's output array given by its layer lemma (Proof/Layer0.lean … Layer3.lean: what a
  grid point writes back, the cover of the rows by the blocks, the whole array) over the products read at an
  index (Proof/MatmulAt.lean) and the head's arithmetic row by row (Proof/HeadRows.lean). The reference's run
  and its stages are the generated reference run and read-back modules (Proof/RefRunP.lean, RefReadP.lean).
-/
import proofs.«129497_j21380347199506_1_alg».proof.Defs
import proofs.«129497_j21380347199506_1_alg».proof.Proof.Gen.Kernel
import proofs.«129497_j21380347199506_1_alg».proof.Proof.Gen.Kernel.Skeleton
import proofs.«129497_j21380347199506_1_alg».proof.Proof.Gen.Kernel.Launch
import proofs.«129497_j21380347199506_1_alg».proof.Proof.Gen.Kernel.Points
import proofs.«129497_j21380347199506_1_alg».proof.Proof.Gen.Kernel.Frame
import proofs.«129497_j21380347199506_1_alg».proof.Proof.Gen.KernelIdeal
import proofs.«129497_j21380347199506_1_alg».proof.Proof.Gen.KernelIdeal.Skeleton
import proofs.«129497_j21380347199506_1_alg».proof.Proof.Gen.KernelIdeal.Launch
import proofs.«129497_j21380347199506_1_alg».proof.Proof.Gen.KernelIdeal.Points
import proofs.«129497_j21380347199506_1_alg».proof.Proof.Gen.KernelIdeal.Frame
import proofs.«129497_j21380347199506_1_alg».proof.Proof.Gen.ReferenceIdeal
import proofs.«129497_j21380347199506_1_alg».proof.Proof.Gen.Pre_finite_inputs
import proofs.«129497_j21380347199506_1_alg».proof.Proof.RefRunP
import proofs.«129497_j21380347199506_1_alg».proof.Proof.RefReadP
import proofs.«129497_j21380347199506_1_alg».proof.Proof.KernelRun
import proofs.«129497_j21380347199506_1_alg».proof.Proof.FoldC
import Idealize.ShloMosaic.Adequacy
import Idealize.ShloMosaic.Init

noncomputable section

namespace Cert.Proof

open Idealize.ShloMosaic Idealize.SL.Sem

/-- The kernel as printed runs and keeps its arguments: the generated frame over its four regions. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- The ideal pass rewrote no operation of the kernel. -/
theorem preserves : Cert.preserves_Kernel_KernelIdeal := trivial

/-- From memories agreeing on the fifteen arguments both idealized programs end with the result array at the
    reference's result function of those arguments: the kernel by the fold of its segments, the reference by its
    run read back. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.ReadP.val_main_v162 (F := Ideal) (Cert.KernelIdeal.Fold.A0 m c) (Cert.KernelIdeal.Fold.A1 m c) (Cert.KernelIdeal.Fold.A2 m c) (Cert.KernelIdeal.Fold.A3 m c) (Cert.KernelIdeal.Fold.A4 m c) (Cert.KernelIdeal.Fold.A5 m c) (Cert.KernelIdeal.Fold.A6 m c) (Cert.KernelIdeal.Fold.A7 m c) (Cert.KernelIdeal.Fold.A8 m c) (Cert.KernelIdeal.Fold.A9 m c) (Cert.KernelIdeal.Fold.A10 m c) (Cert.KernelIdeal.Fold.A11 m c) (Cert.KernelIdeal.Fold.A12 m c) (Cert.KernelIdeal.Fold.A13 m c) (Cert.KernelIdeal.Fold.A14 m c), ?_, ?_⟩
  · exact (θ_run Cert.KernelIdeal.defs _ _).mono
      (fun _ h c => ⟨(h c).1.trans (Cert.KernelIdeal.Fold.W15_v142 m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v162_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
